-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S128x64 : Shape := ⟨2, ![128, 64]⟩
abbrev S160x64 : Shape := ⟨2, ![160, 64]⟩
abbrev S64x4 : Shape := ⟨2, ![64, 4]⟩
abbrev S4 : Shape := ⟨1, ![4]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S160x64 : S_.BroadcastsInDim S160x64 (![] : Fin 0 → Fin S160x64.rank)
  reducesTo_S160x64_S_d0_1 : S160x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part5 {F : FTy → Type} [FloatOps F] (main_v83 : IVec S_ 1) (main_v84 : FVec F S4 .f32) (main_cst_32 : FVec F S_ .f32) : IVec S_ 1 :=
  let main_v85 : FVec F S4 .f32 := broadcastInDim S4 ![] bcast_S_S4 main_cst_32
  let main_v86 : IVec S4 1 := cmpf .olt main_v84 main_v85
  let main_c_33 : IVec S_ 1 := constantI S_ 1 1#1
  let main_v87 : IVec S_ 1 := (fun x v => Host.reduce IntOp.andi x v reducesTo_S4_S_d0 h_S_) main_v86 main_c_33
  let main_v88 : IVec S_ 1 := andi main_v83 main_v87
  main_v88

def fn_part4 {F : FTy → Type} [FloatOps F] (main_arg15 : FVec F S160x64 .f32) (main_arg16 : FVec F S64 .f32) (main_arg17 : FVec F S64x4 .f32) (main_arg18 : FVec F S4 .f32) (main_v63 : IVec S_ 1) (main_v67 : IVec S_ 1) : IVec S_ 1 :=
  let main_v68 : IVec S_ 1 := andi main_v63 main_v67
  let main_v69 : FVec F S160x64 .f32 := Host.absf main_arg15
  let main_cst_26 : FVec F S_ .f32 := constant S_ .f32 0x7F800000#32
  let main_v70 : FVec F S160x64 .f32 := broadcastInDim S160x64 ![] bcast_S_S160x64 main_cst_26
  let main_v71 : IVec S160x64 1 := cmpf .olt main_v69 main_v70
  let main_c_27 : IVec S_ 1 := constantI S_ 1 1#1
  let main_v72 : IVec S_ 1 := (fun x v => Host.reduce IntOp.andi x v reducesTo_S160x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x4 .f32 := Host.absf main_arg17
  let main_cst_30 : FVec F S_ .f32 := constant S_ .f32 0x7F800000#32
  let main_v80 : FVec F S64x4 .f32 := broadcastInDim S64x4 ![] bcast_S_S64x4 main_cst_30
  let main_v81 : IVec S64x4 1 := cmpf .olt main_v79 main_v80
  let main_c_31 : IVec S_ 1 := constantI S_ 1 1#1
  let main_v82 : IVec S_ 1 := (fun x v => Host.reduce IntOp.andi x v reducesTo_S64x4_S_d0_1 h_S_) main_v81 main_c_31
  let main_v83 : IVec S_ 1 := andi main_v78 main_v82
  let main_v84 : FVec F S4 .f32 := Host.absf main_arg18
  let main_cst_32 : FVec F S_ .f32 := constant S_ .f32 0x7F800000#32
  fn_part5 (F := F) main_v83 main_v84 main_cst_32

def fn_part3 {F : FTy → Type} [FloatOps F] (main_arg12 : FVec F S64 .f32) (main_arg13 : FVec F S128x64 .f32) (main_arg14 : FVec F S64 .f32) (main_arg15 : FVec F S160x64 .f32) (main_arg16 : FVec F S64 .f32) (main_arg17 : FVec F S64x4 .f32) (main_arg18 : FVec F S4 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_v63 main_v67

def fn_part2 {F : FTy → Type} [FloatOps F] (main_arg8 : FVec F S64 .f32) (main_arg9 : FVec F S128x64 .f32) (main_arg10 : FVec F S64 .f32) (main_arg11 : FVec F S128x64 .f32) (main_arg12 : FVec F S64 .f32) (main_arg13 : FVec F S128x64 .f32) (main_arg14 : FVec F S64 .f32) (main_arg15 : FVec F S160x64 .f32) (main_arg16 : FVec F S64 .f32) (main_arg17 : FVec F S64x4 .f32) (main_arg18 : FVec F S4 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_arg15 main_arg16 main_arg17 main_arg18 main_v48 main_v49 main_v50

def fn_part1 {F : FTy → Type} [FloatOps F] (main_arg5 : FVec F S64x64 .f32) (main_arg6 : FVec F S64 .f32) (main_arg7 : FVec F S64x64 .f32) (main_arg8 : FVec F S64 .f32) (main_arg9 : FVec F S128x64 .f32) (main_arg10 : FVec F S64 .f32) (main_arg11 : FVec F S128x64 .f32) (main_arg12 : FVec F S64 .f32) (main_arg13 : FVec F S128x64 .f32) (main_arg14 : FVec F S64 .f32) (main_arg15 : FVec F S160x64 .f32) (main_arg16 : FVec F S64 .f32) (main_arg17 : FVec F S64x4 .f32) (main_arg18 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x64 .f32) (main_arg1 : IVec S2x1600000 32) (main_arg2 : FVec F S1600000x32 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S128x64 .f32) (main_arg10 : FVec F S64 .f32) (main_arg11 : FVec F S128x64 .f32) (main_arg12 : FVec F S64 .f32) (main_arg13 : FVec F S128x64 .f32) (main_arg14 : FVec F S64 .f32) (main_arg15 : FVec F S160x64 .f32) (main_arg16 : FVec F S64 .f32) (main_arg17 : FVec F S64x4 .f32) (main_arg18 : FVec F S4 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S128x64 : Shape := ⟨2, ![128, 64]⟩
abbrev S160x64 : Shape := ⟨2, ![160, 64]⟩
abbrev S64x4 : Shape := ⟨2, ![64, 4]⟩
abbrev S4 : Shape := ⟨1, ![4]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x128 : Shape := ⟨2, ![100000, 128]⟩
abbrev S1600000x1 : Shape := ⟨2, ![1600000, 1]⟩
abbrev S1600000x64 : Shape := ⟨2, ![1600000, 64]⟩
abbrev S1x4 : Shape := ⟨2, ![1, 4]⟩
abbrev S1600000x4 : Shape := ⟨2, ![1600000, 4]⟩
abbrev S3200x64 : Shape := ⟨2, ![3200, 64]⟩
abbrev S3200x32 : Shape := ⟨2, ![3200, 32]⟩
abbrev S3200x4 : Shape := ⟨2, ![3200, 4]⟩
abbrev S3200x160 : Shape := ⟨2, ![3200, 160]⟩

abbrev nBuf : Space → Nat
  | .hbm => 177
  | .vmem => 12
  | .smem => 0
  | _ => 0

abbrev hbmTy0_0 (i : Nat) : BufTy := match i % 128 with
  | 0 => ⟨S100000x64, .f32⟩
  | 1 => ⟨S2x1600000, .i32⟩
  | 2 => ⟨S1600000x32, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S128x64, .f32⟩
  | 10 => ⟨S64, .f32⟩
  | 11 => ⟨S128x64, .f32⟩
  | 12 => ⟨S64, .f32⟩
  | 13 => ⟨S128x64, .f32⟩
  | 14 => ⟨S64, .f32⟩
  | 15 => ⟨S160x64, .f32⟩
  | 16 => ⟨S64, .f32⟩
  | 17 => ⟨S64x4, .f32⟩
  | 18 => ⟨S4, .f32⟩
  | 19 => ⟨S1x1600000, .i32⟩
  | 20 => ⟨S1600000, .i32⟩
  | 21 => ⟨S1x1600000, .i32⟩
  | 22 => ⟨S1600000, .i32⟩
  | 23 => ⟨S100000, .i32⟩
  | 24 => ⟨S1700000, .i32⟩
  | 25 => ⟨S1700000, .i32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .f32⟩
  | 56 => ⟨S100000x64, .f32⟩
  | 57 => ⟨S100000x64, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x1, .f32⟩
  | 68 => ⟨S1700000x64, .f32⟩
  | 69 => ⟨S1700000x64, .f32⟩
  | 70 => ⟨S_, .f32⟩
  | 71 => ⟨S100000x64, .f32⟩
  | 72 => ⟨S1700000x1, .i32⟩
  | 73 => ⟨S100000x64, .f32⟩
  | 74 => ⟨S1x64, .f32⟩
  | 75 => ⟨S100000x64, .f32⟩
  | 76 => ⟨S100000x64, .f32⟩
  | 77 => ⟨S100000x128, .f32⟩
  | 78 => ⟨S100000x64, .f32⟩
  | 79 => ⟨S1x64, .f32⟩
  | 80 => ⟨S100000x64, .f32⟩
  | 81 => ⟨S100000x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x64, .f32⟩
  | 100 => ⟨S1700000x1, .f32⟩
  | 101 => ⟨S1700000x64, .f32⟩
  | 102 => ⟨S1700000x64, .f32⟩
  | 103 => ⟨S_, .f32⟩
  | 104 => ⟨S100000x64, .f32⟩
  | 105 => ⟨S1700000x1, .i32⟩
  | 106 => ⟨S100000x64, .f32⟩
  | 107 => ⟨S1x64, .f32⟩
  | 108 => ⟨S100000x64, .f32⟩
  | 109 => ⟨S100000x64, .f32⟩
  | 110 => ⟨S100000x128, .f32⟩
  | 111 => ⟨S100000x64, .f32⟩
  | 112 => ⟨S1x64, .f32⟩
  | 113 => ⟨S100000x64, .f32⟩
  | 114 => ⟨S100000x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S100000x64, .f32⟩
  | 124 => ⟨S_, .i32⟩
  | 125 => ⟨S1700000, .i32⟩
  | 126 => ⟨S1700000, .i1⟩
  | 127 => ⟨S_, .i32⟩
  | _ => ⟨S100000x64, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x64, .f32⟩
  | 5 => ⟨S1700000x1, .f32⟩
  | 6 => ⟨S1700000x64, .f32⟩
  | 7 => ⟨S1700000x64, .f32⟩
  | 8 => ⟨S_, .f32⟩
  | 9 => ⟨S100000x64, .f32⟩
  | 10 => ⟨S1700000x1, .i32⟩
  | 11 => ⟨S100000x64, .f32⟩
  | 12 => ⟨S1x64, .f32⟩
  | 13 => ⟨S100000x64, .f32⟩
  | 14 => ⟨S100000x64, .f32⟩
  | 15 => ⟨S100000x64, .f32⟩
  | 16 => ⟨S100000x128, .f32⟩
  | 17 => ⟨S100000x64, .f32⟩
  | 18 => ⟨S1x64, .f32⟩
  | 19 => ⟨S100000x64, .f32⟩
  | 20 => ⟨S100000x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S100000x64, .f32⟩
  | 27 => ⟨S100000x64, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x64, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x64, .f32⟩
  | 46 => ⟨S1x64, .f32⟩
  | 47 => ⟨S1x4, .f32⟩
  | 48 => ⟨S1600000x4, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S3200x64, .f32⟩
  | .local _ .vmem, ⟨1, _⟩ => ⟨S3200x64, .f32⟩
  | .local _ .vmem, ⟨2, _⟩ => ⟨S3200x64, .f32⟩
  | .local _ .vmem, ⟨3, _⟩ => ⟨S3200x64, .f32⟩
  | .local _ .vmem, ⟨4, _⟩ => ⟨S3200x32, .f32⟩
  | .local _ .vmem, ⟨5, _⟩ => ⟨S3200x32, .f32⟩
  | .local _ .vmem, ⟨6, _⟩ => ⟨S160x64, .f32⟩
  | .local _ .vmem, ⟨7, _⟩ => ⟨S1x64, .f32⟩
  | .local _ .vmem, ⟨8, _⟩ => ⟨S64x4, .f32⟩
  | .local _ .vmem, ⟨9, _⟩ => ⟨S1x4, .f32⟩
  | .local _ .vmem, ⟨10, _⟩ => ⟨S3200x4, .f32⟩
  | .local _ .vmem, ⟨11, _⟩ => ⟨S3200x4, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_c_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_14 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_16 : Ref sig .tc := ⟨.hbm, 124, rfl⟩
abbrev main_v87 : Ref sig .tc := ⟨.hbm, 125, rfl⟩
abbrev main_v88 : Ref sig .tc := ⟨.hbm, 126, rfl⟩
abbrev main_c_17 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_18 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_19 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_c_20 : Ref sig .tc := ⟨.hbm, 156, rfl⟩
abbrev main_v115 : Ref sig .tc := ⟨.hbm, 157, rfl⟩
abbrev main_v116 : Ref sig .tc := ⟨.hbm, 158, rfl⟩
abbrev main_c_21 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_22 : Ref sig .tc := ⟨.hbm, 165, rfl⟩
abbrev main_v122 : Ref sig .tc := ⟨.hbm, 166, rfl⟩
abbrev main_v123 : Ref sig .tc := ⟨.hbm, 167, rfl⟩
abbrev main_c_23 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S100000x64 : S_.BroadcastsInDim S100000x64 (![] : Fin 0 → Fin S100000x64.rank)
  bcast_S1700000x1_S1700000x64_0_1 : S1700000x1.BroadcastsInDim S1700000x64 (![0, 1] : Fin 2 → Fin S1700000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  shapeCasts_S4_S1x4 : S4.ShapeCasts S1x4
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  bitsLt_bf16_f32 : FTy.bits .bf16 < FTy.bits .f32
  inb_S3200x32_S3200x32_0_0 : ∀ a, (![0, 0] : Fin 2 → Nat) a + S3200x32.size a ≤ S3200x32.size a
  h_S3200x32 : 0 < S3200x32.numel
  concatenates_S3200x64_S3200x64_S3200x32_S3200x160_d1 : Shape.Concatenates [S3200x64, S3200x64, S3200x32] S3200x160 1
  inb_S160x64_S160x64_0_0 : ∀ a, (![0, 0] : Fin 2 → Nat) a + S160x64.size a ≤ S160x64.size a
  h_S160x64 : 0 < S160x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S3200x4 : S1x4.Broadcasts S3200x4
  inb_S3200x4_S3200x4_0_0 : ∀ a, (![0, 0] : Fin 2 → Nat) a + S3200x4.size a ≤ S3200x4.size a
  h_S3200x4 : 0 < S3200x4.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  dot_S3200x160_S160x64_S3200x64_1_0_0_1_n_n_wf : DotDims.WF S3200x160 S160x64 S3200x64 [1] [0] [0] [1] [] []
  dot_S3200x64_S64x4_S3200x4_1_0_0_1_n_n_wf : DotDims.WF S3200x64 S64x4 S3200x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S1600000x64.size a
  hwx0_0 : ∀ i : grid0.Coords, EltTy.bits .f32 = 32 ∨ (Rect.block (s := S1600000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S1600000x64.size a
  hwx0_1 : ∀ i : grid0.Coords, EltTy.bits .f32 = 32 ∨ (Rect.block (s := S1600000x64) S3200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x32.size a ≤ S1600000x32.size a
  hwx0_2 : ∀ i : grid0.Coords, EltTy.bits .f32 = 32 ∨ (Rect.block (s := S1600000x32) S3200x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x64.size a ≤ S160x64.size a
  hwx0_3 : ∀ i : grid0.Coords, EltTy.bits .f32 = 32 ∨ (Rect.block (s := S160x64) S160x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x4.size a ≤ S64x4.size a
  hwx0_5 : ∀ i : grid0.Coords, EltTy.bits .f32 = 32 ∨ (Rect.block (s := S64x4) S64x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x4.size a ≤ S1600000x4.size a
  hwx0_7 : ∀ i : grid0.Coords, EltTy.bits .f32 = 32 ∨ (Rect.block (s := S1600000x4) S3200x4.size (cc0_transform_7 i) (hinb0_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S3200x160_S160x64_S3200x64_1_0_0_1_n_n : DotDims S3200x160 S160x64 S3200x64 where
  lhsContracting := [1]
  rhsContracting := [0]
  lhsNonContracting := [0]
  rhsNonContracting := [1]
  lhsBatch := []
  rhsBatch := []
  wf := dot_S3200x160_S160x64_S3200x64_1_0_0_1_n_n_wf
def dot_S3200x64_S64x4_S3200x4_1_0_0_1_n_n : DotDims S3200x64 S64x4 S3200x4 where
  lhsContracting := [1]
  rhsContracting := [0]
  lhsNonContracting := [0]
  rhsNonContracting := [1]
  lhsBatch := []
  rhsBatch := []
  wf := dot_S3200x64_S64x4_S3200x4_1_0_0_1_n_n_wf

abbrev win0_0 : Pipeline.Window sig grid0 :=
  Pipeline.Window.ofSpec (Memref.whole main_v121) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v128) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3200x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg15) S160x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v129) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg17) S64x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v130) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v131) S3200x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S128x64 : Shape := ⟨2, ![128, 64]⟩
abbrev S160x64 : Shape := ⟨2, ![160, 64]⟩
abbrev S64x4 : Shape := ⟨2, ![64, 4]⟩
abbrev S4 : Shape := ⟨1, ![4]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x128 : Shape := ⟨2, ![100000, 128]⟩
abbrev S1600000x1 : Shape := ⟨2, ![1600000, 1]⟩
abbrev S1600000x64 : Shape := ⟨2, ![1600000, 64]⟩
abbrev S1600000x160 : Shape := ⟨2, ![1600000, 160]⟩
abbrev S1600000x4 : Shape := ⟨2, ![1600000, 4]⟩
abbrev S1x4 : Shape := ⟨2, ![1, 4]⟩

abbrev nBuf : Space → Nat
  | .hbm => 186
  | .vmem => 0
  | .smem => 0
  | _ => 0

abbrev hbmTy0_0 (i : Nat) : BufTy := match i % 128 with
  | 0 => ⟨S100000x64, .f32⟩
  | 1 => ⟨S2x1600000, .i32⟩
  | 2 => ⟨S1600000x32, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S128x64, .f32⟩
  | 10 => ⟨S64, .f32⟩
  | 11 => ⟨S128x64, .f32⟩
  | 12 => ⟨S64, .f32⟩
  | 13 => ⟨S128x64, .f32⟩
  | 14 => ⟨S64, .f32⟩
  | 15 => ⟨S160x64, .f32⟩
  | 16 => ⟨S64, .f32⟩
  | 17 => ⟨S64x4, .f32⟩
  | 18 => ⟨S4, .f32⟩
  | 19 => ⟨S1x1600000, .i32⟩
  | 20 => ⟨S1600000, .i32⟩
  | 21 => ⟨S1x1600000, .i32⟩
  | 22 => ⟨S1600000, .i32⟩
  | 23 => ⟨S100000, .i32⟩
  | 24 => ⟨S1700000, .i32⟩
  | 25 => ⟨S1700000, .i32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .f32⟩
  | 56 => ⟨S100000x64, .f32⟩
  | 57 => ⟨S100000x64, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x1, .f32⟩
  | 68 => ⟨S1700000x64, .f32⟩
  | 69 => ⟨S1700000x64, .f32⟩
  | 70 => ⟨S_, .f32⟩
  | 71 => ⟨S100000x64, .f32⟩
  | 72 => ⟨S1700000x1, .i32⟩
  | 73 => ⟨S100000x64, .f32⟩
  | 74 => ⟨S1x64, .f32⟩
  | 75 => ⟨S100000x64, .f32⟩
  | 76 => ⟨S100000x64, .f32⟩
  | 77 => ⟨S100000x128, .f32⟩
  | 78 => ⟨S100000x64, .f32⟩
  | 79 => ⟨S1x64, .f32⟩
  | 80 => ⟨S100000x64, .f32⟩
  | 81 => ⟨S100000x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x64, .f32⟩
  | 100 => ⟨S1700000x1, .f32⟩
  | 101 => ⟨S1700000x64, .f32⟩
  | 102 => ⟨S1700000x64, .f32⟩
  | 103 => ⟨S_, .f32⟩
  | 104 => ⟨S100000x64, .f32⟩
  | 105 => ⟨S1700000x1, .i32⟩
  | 106 => ⟨S100000x64, .f32⟩
  | 107 => ⟨S1x64, .f32⟩
  | 108 => ⟨S100000x64, .f32⟩
  | 109 => ⟨S100000x64, .f32⟩
  | 110 => ⟨S100000x128, .f32⟩
  | 111 => ⟨S100000x64, .f32⟩
  | 112 => ⟨S1x64, .f32⟩
  | 113 => ⟨S100000x64, .f32⟩
  | 114 => ⟨S100000x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S100000x64, .f32⟩
  | 124 => ⟨S_, .i32⟩
  | 125 => ⟨S1700000, .i32⟩
  | 126 => ⟨S1700000, .i1⟩
  | 127 => ⟨S_, .i32⟩
  | _ => ⟨S100000x64, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x64, .f32⟩
  | 5 => ⟨S1700000x1, .f32⟩
  | 6 => ⟨S1700000x64, .f32⟩
  | 7 => ⟨S1700000x64, .f32⟩
  | 8 => ⟨S_, .f32⟩
  | 9 => ⟨S100000x64, .f32⟩
  | 10 => ⟨S1700000x1, .i32⟩
  | 11 => ⟨S100000x64, .f32⟩
  | 12 => ⟨S1x64, .f32⟩
  | 13 => ⟨S100000x64, .f32⟩
  | 14 => ⟨S100000x64, .f32⟩
  | 15 => ⟨S100000x64, .f32⟩
  | 16 => ⟨S100000x128, .f32⟩
  | 17 => ⟨S100000x64, .f32⟩
  | 18 => ⟨S1x64, .f32⟩
  | 19 => ⟨S100000x64, .f32⟩
  | 20 => ⟨S100000x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S100000x64, .f32⟩
  | 27 => ⟨S100000x64, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x64, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x64, .f32⟩
  | 46 => ⟨S1600000x160, .f32⟩
  | 47 => ⟨S1600000x64, .f32⟩
  | 48 => ⟨S1x64, .f32⟩
  | 49 => ⟨S1600000x64, .f32⟩
  | 50 => ⟨S1600000x64, .f32⟩
  | 51 => ⟨S_, .f32⟩
  | 52 => ⟨S1600000x64, .f32⟩
  | 53 => ⟨S1600000x64, .f32⟩
  | 54 => ⟨S1600000x4, .f32⟩
  | 55 => ⟨S1x4, .f32⟩
  | 56 => ⟨S1600000x4, .f32⟩
  | 57 => ⟨S1600000x4, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_11 : Ref sig .tc := ⟨.hbm, 91, rfl⟩
abbrev main_v59 : Ref sig .tc := ⟨.hbm, 92, rfl⟩
abbrev main_v60 : Ref sig .tc := ⟨.hbm, 93, rfl⟩
abbrev main_c_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_14 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_16 : Ref sig .tc := ⟨.hbm, 124, rfl⟩
abbrev main_v87 : Ref sig .tc := ⟨.hbm, 125, rfl⟩
abbrev main_v88 : Ref sig .tc := ⟨.hbm, 126, rfl⟩
abbrev main_c_17 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_18 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_19 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_c_20 : Ref sig .tc := ⟨.hbm, 156, rfl⟩
abbrev main_v115 : Ref sig .tc := ⟨.hbm, 157, rfl⟩
abbrev main_v116 : Ref sig .tc := ⟨.hbm, 158, rfl⟩
abbrev main_c_21 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_22 : Ref sig .tc := ⟨.hbm, 165, rfl⟩
abbrev main_v122 : Ref sig .tc := ⟨.hbm, 166, rfl⟩
abbrev main_v123 : Ref sig .tc := ⟨.hbm, 167, rfl⟩
abbrev main_c_23 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_call0_cst : Ref sig .tc := ⟨.hbm, 179, rfl⟩
abbrev main_call0_v0 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S100000x64 : S_.BroadcastsInDim S100000x64 (![] : Fin 0 → Fin S100000x64.rank)
  bcast_S1700000x1_S1700000x64_0_1 : S1700000x1.BroadcastsInDim S1700000x64 (![0, 1] : Fin 2 → Fin S1700000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x32_S1600000x160_d1 : Shape.Concatenates [S1600000x64, S1600000x64, S1600000x32] S1600000x160 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S4_S1x4_1 : S4.BroadcastsInDim S1x4 (![1] : Fin 1 → Fin S1x4.rank)
  bcast_S1x4_S1600000x4_0_1 : S1x4.BroadcastsInDim S1600000x4 (![0, 1] : Fin 2 → Fin S1600000x4.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x160_S160x64_S1600000x64_1_0_0_1_n_n_wf : DotDims.WF S1600000x160 S160x64 S1600000x64 [1] [0] [0] [1] [] []
  dot_S1600000x64_S64x4_S1600000x4_1_0_0_1_n_n_wf : DotDims.WF S1600000x64 S64x4 S1600000x4 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x160_S160x64_S1600000x64_1_0_0_1_n_n : DotDims S1600000x160 S160x64 S1600000x64 where
  lhsContracting := [1]
  rhsContracting := [0]
  lhsNonContracting := [0]
  rhsNonContracting := [1]
  lhsBatch := []
  rhsBatch := []
  wf := dot_S1600000x160_S160x64_S1600000x64_1_0_0_1_n_n_wf
def dot_S1600000x64_S64x4_S1600000x4_1_0_0_1_n_n : DotDims S1600000x64 S64x4 S1600000x4 where
  lhsContracting := [1]
  rhsContracting := [0]
  lhsNonContracting := [0]
  rhsNonContracting := [1]
  lhsBatch := []
  rhsBatch := []
  wf := dot_S1600000x64_S64x4_S1600000x4_1_0_0_1_n_n_wf

class Facts : Prop extends Facts₀ where

variable [Facts]
-- ==== Proof.LibConcatRows.lean ====
/-
  Reading a concatenation of three row-aligned pieces at an index.

  Three arrays with the same number of rows `R` and 64, 64 and 32 columns, laid side by side along the column axis,
  make an array of `R` rows and 160 columns. Its entry at row `r` and column `j` is the first piece's entry
  `(r, j)` when `j < 64`, the second piece's entry `(r, j - 64)` when `64 ≤ j < 128`, and the third piece's entry
  `(r, j - 128)` otherwise. The statement is general in `R` and in the element type, so that a block of rows of the
  joined array and the joined array itself are read by the same rule. A last lemma lets a simplifier rewrite the
  operands of a concatenation.
-/
import Idealize.ShloMosaic.Lib.Pipeline.Value
import Idealize.ShloMosaic.Lib.ValueIdx

namespace Idealize.ShloMosaic.ConcatRows

open Idealize.ShloMosaic Idealize.ShloMosaic.ValueIdx

variable {α : Type} {R : Nat}

/-- The entry of the three pieces, side by side, at row `r` and column `j`: chosen by where `j` falls among the
    column spans `[0, 64)`, `[64, 128)`, `[128, 160)`. -/
def pick (x1 x2 : (⟨2, ![R, 64]⟩ : Shape).Idx → α) (x3 : (⟨2, ![R, 32]⟩ : Shape).Idx → α) (r : Fin R) (j : Fin 160) : α :=
  if h1 : j.val < 64 then x1 (ix2 r ⟨j.val, h1⟩)
  else if h2 : j.val < 128 then x2 (ix2 r ⟨j.val - 64, by omega⟩)
  else x3 (ix2 r ⟨j.val - 128, by have := j.isLt; omega⟩)

/-- **The joined array read at `(r, j)`** is `pick` of the pieces. -/
theorem concat3_apply (x1 x2 : (⟨2, ![R, 64]⟩ : Shape).Idx → α) (x3 : (⟨2, ![R, 32]⟩ : Shape).Idx → α)
    (h : Shape.Concatenates (([⟨(⟨2, ![R, 64]⟩ : Shape), x1⟩, ⟨(⟨2, ![R, 64]⟩ : Shape), x2⟩, ⟨(⟨2, ![R, 32]⟩ : Shape), x3⟩] :
      List ((s : Shape) × (s.Idx → α))).map (·.1)) (⟨2, ![R, 160]⟩ : Shape) (1 : Fin 2))
    (r : Fin R) (j : Fin 160) :
    concatenate (⟨2, ![R, 160]⟩ : Shape) (1 : Fin 2) [⟨(⟨2, ![R, 64]⟩ : Shape), x1⟩, ⟨(⟨2, ![R, 64]⟩ : Shape), x2⟩, ⟨(⟨2, ![R, 32]⟩ : Shape), x3⟩] h (ix2 r j)
      = pick x1 x2 x3 r j := by
  unfold pick
  by_cases h1 : j.val < 64
  · rw [dif_pos h1]
    refine concatenate_apply_piece (1 : Fin 2) _ h (ix2 r j) 0 (by simp) (⟨2, ![R, 64]⟩ : Shape) x1 rfl rfl 0 rfl
      (ix2 r ⟨j.val, h1⟩) (fun b hb => ?_) ?_
    · match b with
      | ⟨0, _⟩ => rfl
      | ⟨1, _⟩ => exact absurd (Fin.ext rfl) hb
    · show 0 + j.val = j.val
      omega
  · rw [dif_neg h1]
    by_cases h2 : j.val < 128
    · rw [dif_pos h2]
      refine concatenate_apply_piece (1 : Fin 2) _ h (ix2 r j) 1 (by simp) (⟨2, ![R, 64]⟩ : Shape) x2 rfl rfl 64 rfl
        (ix2 r ⟨j.val - 64, by omega⟩) (fun b hb => ?_) ?_
      · match b with
        | ⟨0, _⟩ => rfl
        | ⟨1, _⟩ => exact absurd (Fin.ext rfl) hb
      · show 64 + (j.val - 64) = j.val
        omega
    · rw [dif_neg h2]
      refine concatenate_apply_piece (1 : Fin 2) _ h (ix2 r j) 2 (by simp) (⟨2, ![R, 32]⟩ : Shape) x3 rfl rfl 128 rfl
        (ix2 r ⟨j.val - 128, by have := j.isLt; omega⟩) (fun b hb => ?_) ?_
      · match b with
        | ⟨0, _⟩ => rfl
        | ⟨1, _⟩ => exact absurd (Fin.ext rfl) hb
      · show 128 + (j.val - 128) = j.val
        have := j.isLt
        omega

/-- Pieces that agree entry by entry along a map of rows give the same `pick`: the rule that carries a block of rows
    of the joined array to the joined array. -/
theorem pick_congr {R' : Nat} (x1 x2 : (⟨2, ![R, 64]⟩ : Shape).Idx → α) (x3 : (⟨2, ![R, 32]⟩ : Shape).Idx → α)
    (y1 y2 : (⟨2, ![R', 64]⟩ : Shape).Idx → α) (y3 : (⟨2, ![R', 32]⟩ : Shape).Idx → α) (r : Fin R) (r' : Fin R')
    (e1 : ∀ k : Fin 64, x1 (ix2 r k) = y1 (ix2 r' k)) (e2 : ∀ k : Fin 64, x2 (ix2 r k) = y2 (ix2 r' k))
    (e3 : ∀ k : Fin 32, x3 (ix2 r k) = y3 (ix2 r' k)) (j : Fin 160) :
    pick x1 x2 x3 r j = pick y1 y2 y3 r' j := by
  unfold pick
  by_cases h1 : j.val < 64
  · rw [dif_pos h1, dif_pos h1]; exact e1 _
  · rw [dif_neg h1, dif_neg h1]
    by_cases h2 : j.val < 128
    · rw [dif_pos h2, dif_pos h2]; exact e2 _
    · rw [dif_neg h2, dif_neg h2]; exact e3 _

/-- The side condition of a concatenation, carried along an equation between operand lists. It is a theorem, so
    that a term mentioning it never offers the equation's proof for reduction. -/
theorem concatenates_of_eq {t : Shape} {a : Fin t.rank} {xs ys : List ((s : Shape) × (s.Idx → α))} (e : xs = ys)
    (h : Shape.Concatenates (xs.map (·.1)) t a) : Shape.Concatenates (ys.map (·.1)) t a := e ▸ h

/-- Equal operand lists give equal concatenations. Stated so that a simplifier may use it as a congruence rule and
    rewrite the operands of a concatenation — which it does not do by itself, the side condition's statement
    mentioning the operand list. -/
theorem concatenate_congr_operands {t : Shape} {a : Fin t.rank} {xs ys : List ((s : Shape) × (s.Idx → α))} (e : xs = ys)
    (h : Shape.Concatenates (xs.map (·.1)) t a) :
    concatenate t a xs h = concatenate t a ys (concatenates_of_eq e h) := by subst e; rfl

end Idealize.ShloMosaic.ConcatRows
-- ==== Proof.EdgeMlp.lean ====
/-
  The edge predictor, one output entry at a time.

  For an edge `r` the features are the row `r` of three arrays laid side by side (64 + 64 + 32 = 160 columns:
  the source node's embedding, the destination node's embedding, the edge's attributes). The predictor is a two-layer
  network: the hidden unit `k` is `max (∑ j, feat r j · W1 j k + b1 k) 0`, and the output entry `(r, q)` is
  `∑ k, hidden r k · W2 k q + b2 q`. Everything is on the extended reals; the zero of the rectifier is kept as the
  float word both programs spell it with.

  The function is stated for any number of rows `R`, so that a block of rows and the whole array are the same function
  of their own pieces; `mlpRow_rows` says that pieces agreeing along a map of rows give the same entries.
-/
import Idealize.ShloMosaic.PureOps.Ideal
import proofs.«177977_j57612691309353_2_alg».proof.Proof.LibConcatRows

noncomputable section

namespace Cert.EdgeMlp

open Idealize.ShloMosaic Idealize.ShloMosaic.ValueIdx Idealize.ShloMosaic.ConcatRows

variable {R : Nat}

/-- Output entry `(r, q)` of the two-layer network on the features of row `r`. -/
def mlpRow (x1 x2 : (⟨2, ![R, 64]⟩ : Shape).Idx → EReal) (x3 : (⟨2, ![R, 32]⟩ : Shape).Idx → EReal)
    (W1 : (⟨2, ![160, 64]⟩ : Shape).Idx → EReal) (b1 : Fin 64 → EReal)
    (W2 : (⟨2, ![64, 4]⟩ : Shape).Idx → EReal) (b2 : Fin 4 → EReal) (r : Fin R) (q : Fin 4) : EReal :=
  (∑ k : Fin 64, max ((∑ j : Fin 160, pick x1 x2 x3 r j * W1 (ix2 j k)) + b1 k) (Ideal.ofBits .f32 0x00000000#32) * W2 (ix2 k q)) + b2 q

/-- Pieces that agree entry by entry along a map of rows give the same output entries. -/
theorem mlpRow_rows {R' : Nat} (x1 x2 : (⟨2, ![R, 64]⟩ : Shape).Idx → EReal) (x3 : (⟨2, ![R, 32]⟩ : Shape).Idx → EReal)
    (y1 y2 : (⟨2, ![R', 64]⟩ : Shape).Idx → EReal) (y3 : (⟨2, ![R', 32]⟩ : Shape).Idx → EReal)
    (W1 : (⟨2, ![160, 64]⟩ : Shape).Idx → EReal) (b1 : Fin 64 → EReal)
    (W2 : (⟨2, ![64, 4]⟩ : Shape).Idx → EReal) (b2 : Fin 4 → EReal) (r : Fin R) (r' : Fin R')
    (e1 : ∀ k : Fin 64, x1 (ix2 r k) = y1 (ix2 r' k)) (e2 : ∀ k : Fin 64, x2 (ix2 r k) = y2 (ix2 r' k))
    (e3 : ∀ k : Fin 32, x3 (ix2 r k) = y3 (ix2 r' k)) (q : Fin 4) :
    mlpRow x1 x2 x3 W1 b1 W2 b2 r q = mlpRow y1 y2 y3 W1 b1 W2 b2 r' q := by
  unfold mlpRow
  simp only [pick_congr x1 x2 x3 y1 y2 y3 r r' e1 e2 e3]

/-- The same with every operand compared entry by entry: two networks agree at an output entry when their feature rows,
    weights and biases do. -/
theorem mlpRow_congr {R' : Nat} (x1 x2 : (⟨2, ![R, 64]⟩ : Shape).Idx → EReal) (x3 : (⟨2, ![R, 32]⟩ : Shape).Idx → EReal)
    (y1 y2 : (⟨2, ![R', 64]⟩ : Shape).Idx → EReal) (y3 : (⟨2, ![R', 32]⟩ : Shape).Idx → EReal)
    (W1 W1' : (⟨2, ![160, 64]⟩ : Shape).Idx → EReal) (b1 b1' : Fin 64 → EReal)
    (W2 W2' : (⟨2, ![64, 4]⟩ : Shape).Idx → EReal) (b2 b2' : Fin 4 → EReal) (r : Fin R) (r' : Fin R')
    (e1 : ∀ k : Fin 64, x1 (ix2 r k) = y1 (ix2 r' k)) (e2 : ∀ k : Fin 64, x2 (ix2 r k) = y2 (ix2 r' k))
    (e3 : ∀ k : Fin 32, x3 (ix2 r k) = y3 (ix2 r' k)) (eW1 : ∀ (j : Fin 160) (k : Fin 64), W1 (ix2 j k) = W1' (ix2 j k))
    (eb1 : ∀ k : Fin 64, b1 k = b1' k) (eW2 : ∀ (k : Fin 64) (q : Fin 4), W2 (ix2 k q) = W2' (ix2 k q))
    (eb2 : ∀ q : Fin 4, b2 q = b2' q) (q : Fin 4) :
    mlpRow x1 x2 x3 W1 b1 W2 b2 r q = mlpRow y1 y2 y3 W1' b1' W2' b2' r' q := by
  unfold mlpRow
  simp only [pick_congr x1 x2 x3 y1 y2 y3 r r' e1 e2 e3, eW1, eb1, eW2, eb2]

end Cert.EdgeMlp

end
-- ==== Proof.Payload.lean ====
/-
  The kernel body's result, one entry at a time.

  The body loads a block of 3200 edges — the source embeddings, the destination embeddings, the edge attributes — and
  the whole of both weight matrices and both bias rows; it lays the three feature blocks side by side, multiplies by
  `W1`, adds the bias row, rectifies, multiplies by `W2` and adds the second bias row. On the extended reals the
  changes of float format are the identity and each matrix product into a zero accumulator is the plain sum over the
  contracted axis, so entry `(p, q)` of the block is the two-layer network `mlpRow` on the features of row `p`.
-/
import proofs.«177977_j57612691309353_2_alg».proof.Proof.Gen.KernelIdeal.Skeleton
import proofs.«177977_j57612691309353_2_alg».proof.Proof.EdgeMlp
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.ConcatRows Cert.EdgeMlp

/-! ## The first product: 3200×160 by 160×64 -/

local notation "D1" => dot_S3200x160_S160x64_S3200x64_1_0_0_1_n_n

theorem d1_lhs0 (i : S3200x64.Idx) (q : (D1).contr.Idx) : ((D1).lhsIdx i q 0).val = (i 0).val := by
  unfold DotDims.lhsIdx
  rw [dif_neg (show ¬(0 : Fin S3200x160.rank) ∈ (D1).lhsBatch by decide), dif_pos (show (0 : Fin S3200x160.rank) ∈ (D1).lhsNonContracting by decide)]
  rfl
theorem d1_lhs1 (i : S3200x64.Idx) (q : (D1).contr.Idx) : ((D1).lhsIdx i q 1).val = (q ⟨0, by decide⟩).val :=
  (D1).lhsIdx_val_of_single rfl i q
theorem d1_rhs0 (i : S3200x64.Idx) (q : (D1).contr.Idx) : ((D1).rhsIdx i q 0).val = (q ⟨0, by decide⟩).val :=
  (D1).rhsIdx_val_of_single rfl i q
theorem d1_rhs1 (i : S3200x64.Idx) (q : (D1).contr.Idx) : ((D1).rhsIdx i q 1).val = (i 1).val := by
  unfold DotDims.rhsIdx
  rw [dif_neg (show ¬(1 : Fin S160x64.rank) ∈ (D1).rhsBatch by decide), dif_pos (show (1 : Fin S160x64.rank) ∈ (D1).rhsNonContracting by decide)]
  rfl

/-- Entry `(p, k)` of the first product is the sum over the 160 feature columns. -/
theorem matmul1_apply (a : FVec Ideal S3200x160 .bf16) (w : FVec Ideal S160x64 .bf16) (p : Fin 3200) (k : Fin 64) :
    matmul D1 none a w (constant (F := Ideal) S3200x64 .f32 0x00000000#32) (ix2 p k) = ∑ j : Fin 160, a (ix2 p j) * w (ix2 j k) := by
  refine (Ideal.matmul_constant_zero_apply D1 none a w (ix2 p k)).trans ?_
  rw [← Equiv.sum_comp (contrEquiv1 D1 160 rfl rfl).symm]
  refine Finset.sum_congr rfl fun j _ => ?_
  have hj := contrEquiv1_symm_val D1 160 rfl rfl j
  have el : (D1).lhsIdx (ix2 p k) ((contrEquiv1 D1 160 rfl rfl).symm j) = ix2 p j := funext fun a => Fin.ext (by
    match a with
    | ⟨0, _⟩ => exact d1_lhs0 _ _
    | ⟨1, _⟩ => exact (d1_lhs1 _ _).trans hj)
  have er : (D1).rhsIdx (ix2 p k) ((contrEquiv1 D1 160 rfl rfl).symm j) = ix2 j k := funext fun a => Fin.ext (by
    match a with
    | ⟨0, _⟩ => exact (d1_rhs0 _ _).trans hj
    | ⟨1, _⟩ => exact d1_rhs1 _ _)
  rw [el, er]

/-! ## The second product: 3200×64 by 64×4 -/

local notation "D2" => dot_S3200x64_S64x4_S3200x4_1_0_0_1_n_n

theorem d2_lhs0 (i : S3200x4.Idx) (q : (D2).contr.Idx) : ((D2).lhsIdx i q 0).val = (i 0).val := by
  unfold DotDims.lhsIdx
  rw [dif_neg (show ¬(0 : Fin S3200x64.rank) ∈ (D2).lhsBatch by decide), dif_pos (show (0 : Fin S3200x64.rank) ∈ (D2).lhsNonContracting by decide)]
  rfl
theorem d2_lhs1 (i : S3200x4.Idx) (q : (D2).contr.Idx) : ((D2).lhsIdx i q 1).val = (q ⟨0, by decide⟩).val :=
  (D2).lhsIdx_val_of_single rfl i q
theorem d2_rhs0 (i : S3200x4.Idx) (q : (D2).contr.Idx) : ((D2).rhsIdx i q 0).val = (q ⟨0, by decide⟩).val :=
  (D2).rhsIdx_val_of_single rfl i q
theorem d2_rhs1 (i : S3200x4.Idx) (q : (D2).contr.Idx) : ((D2).rhsIdx i q 1).val = (i 1).val := by
  unfold DotDims.rhsIdx
  rw [dif_neg (show ¬(1 : Fin S64x4.rank) ∈ (D2).rhsBatch by decide), dif_pos (show (1 : Fin S64x4.rank) ∈ (D2).rhsNonContracting by decide)]
  rfl

/-- Entry `(p, q)` of the second product is the sum over the 64 hidden units. -/
theorem matmul2_apply (a : FVec Ideal S3200x64 .bf16) (w : FVec Ideal S64x4 .bf16) (p : Fin 3200) (q : Fin 4) :
    matmul D2 none a w (constant (F := Ideal) S3200x4 .f32 0x00000000#32) (ix2 p q) = ∑ k : Fin 64, a (ix2 p k) * w (ix2 k q) := by
  refine (Ideal.matmul_constant_zero_apply D2 none a w (ix2 p q)).trans ?_
  rw [← Equiv.sum_comp (contrEquiv1 D2 64 rfl rfl).symm]
  refine Finset.sum_congr rfl fun k _ => ?_
  have hk := contrEquiv1_symm_val D2 64 rfl rfl k
  have el : (D2).lhsIdx (ix2 p q) ((contrEquiv1 D2 64 rfl rfl).symm k) = ix2 p k := funext fun a => Fin.ext (by
    match a with
    | ⟨0, _⟩ => exact d2_lhs0 _ _
    | ⟨1, _⟩ => exact (d2_lhs1 _ _).trans hk)
  have er : (D2).rhsIdx (ix2 p q) ((contrEquiv1 D2 64 rfl rfl).symm k) = ix2 k q := funext fun a => Fin.ext (by
    match a with
    | ⟨0, _⟩ => exact (d2_rhs0 _ _).trans hk
    | ⟨1, _⟩ => exact d2_rhs1 _ _)
  rw [el, er]

/-! ## The bias rows, spread over the block's rows -/

/-- A bias row of 64 entries spread over 3200 rows: entry `(p, k)` is the row's entry `k`. -/
theorem bias1_apply (b : FVec Ideal S1x64 .f32) (p : Fin 3200) (k : Fin 64) :
    broadcastTo S3200x64 b broadcasts_S1x64_S3200x64 (ix2 p k) = b (ix2 0 k) :=
  broadcastTo_apply b broadcasts_S1x64_S3200x64 (ix2 p k) (ix2 0 k) (fun a => by
    match a with
    | ⟨0, _⟩ => rfl
    | ⟨1, _⟩ => rfl)

/-- A bias row of 4 entries spread over 3200 rows: entry `(p, q)` is the row's entry `q`. -/
theorem bias2_apply (b : FVec Ideal S1x4 .f32) (p : Fin 3200) (q : Fin 4) :
    broadcastTo S3200x4 b broadcasts_S1x4_S3200x4 (ix2 p q) = b (ix2 0 q) :=
  broadcastTo_apply b broadcasts_S1x4_S3200x4 (ix2 p q) (ix2 0 q) (fun a => by
    match a with
    | ⟨0, _⟩ => rfl
    | ⟨1, _⟩ => rfl)

/-! ## The body's result at an entry -/

/-- Entry `(p, q)` of what the body stores is the two-layer network on the features of row `p` of the three loaded
    feature blocks, with the loaded weights and bias rows. -/
theorem pay_apply (v0 v3 : Vec Ideal S3200x64 .f32) (v6 : Vec Ideal S3200x32 .f32) (v9 : Vec Ideal S160x64 .f32)
    (v12 : Vec Ideal S1x64 .f32) (v19 : Vec Ideal S64x4 .f32) (v22 : Vec Ideal S1x4 .f32) (p : Fin 3200) (q : Fin 4) :
    k0_pay1 (F := Ideal) v0 v3 v6 v9 v12 v19 v22 (ix2 p q)
      = mlpRow v0 v3 v6 v9 (fun k => v12 (ix2 0 k)) v19 (fun q' => v22 (ix2 0 q')) p q := by
  unfold k0_pay1 mlpRow
  simp only [shapeCast_self]
  rw [addf_apply, matmul2_apply, bias2_apply]
  refine congrArg (· + v22 (ix2 0 q)) (Finset.sum_congr rfl fun k _ => ?_)
  rw [truncf_apply, truncf_apply, maximumf_apply, addf_apply, matmul1_apply, bias1_apply, broadcast_apply]
  refine congrArg (fun s => max (s + v12 (ix2 0 k)) _ * v19 (ix2 k q)) (Finset.sum_congr rfl fun j _ => ?_)
  rw [truncf_apply]
  refine congrArg (· * v9 (ix2 j k)) ((concat3_apply _ _ _ concatenates_S3200x64_S3200x64_S3200x32_S3200x160_d1 p j).trans ?_)
  rw [shapeCast_self, shapeCast_self]
  rfl

end Cert.KernelIdeal.Body

end
-- ==== Proof.Blocks.lean ====
/-
  From the blocks the kernel writes to the whole result array.

  The grid has 500 points; point `t` handles edges `3200 t … 3200 t + 3199`. Its three feature blocks are those rows
  of the gathered source embeddings, the gathered destination embeddings and the edge attributes; the weight matrices
  and the two bias rows are the same whole arrays at every point. So what point `t` writes back is rows
  `3200 t …` of ONE array: entry `(r, q)` is the two-layer network `mlpRow` on the features of edge `r`. The 500
  blocks tile the result's 1 600 000 rows, so the result array ends holding that array.
-/
import proofs.«177977_j57612691309353_2_alg».proof.Proof.Gen.KernelIdeal.Value
import proofs.«177977_j57612691309353_2_alg».proof.Proof.Payload
import proofs.«177977_j57612691309353_2_alg».proof.Proof.EdgeMlp

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.ValueIdx Cert.EdgeMlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The windows' index maps over the 500 grid points: the three feature windows and the result window move down the
    rows with the point, block `t` at point `t`; the weights and bias rows stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input block, read where it sits in its array -/

/-- Row `p` of the source-embedding block at point `t` is row `3200 t + p` of the gathered source embeddings. -/
theorem blk0_apply (c : Dev nD) (t : Fin cfg0.N) (p : Fin 3200) (k : Fin 64) (r : Fin 1600000) (hr : r.val = t.val * 3200 + p.val) :
    (iblk m c 0 t : Vec Ideal S3200x64 .f32) (ix2 p k) = (V m c (Pipeline.arrRef spec0 0) : S1600000x64.Idx → EReal) (ix2 r k) := by
  obtain ⟨e0, e1, -⟩ := idx_facts t
  have h : ((cfg0.win 0).blk t).view.emb (ix2 p k) = (ix2 r k : S1600000x64.Idx) := funext fun a => Fin.ext (by
    match a with
    | ⟨0, _⟩ => show win0_0.index t (0 : Fin 2) * 3200 + 1 * p.val = r.val; rw [e0, hr]; omega
    | ⟨1, _⟩ => show win0_0.index t (1 : Fin 2) * 64 + 1 * k.val = k.val; rw [e1]; omega)
  unfold iblk
  rw [View.read_apply, h]
  exact cast_eq _ _

/-- Row `p` of the destination-embedding block at point `t` is row `3200 t + p` of the gathered destination embeddings. -/
theorem blk1_apply (c : Dev nD) (t : Fin cfg0.N) (p : Fin 3200) (k : Fin 64) (r : Fin 1600000) (hr : r.val = t.val * 3200 + p.val) :
    (iblk m c 1 t : Vec Ideal S3200x64 .f32) (ix2 p k) = (V m c (Pipeline.arrRef spec0 1) : S1600000x64.Idx → EReal) (ix2 r k) := by
  obtain ⟨-, -, e0, e1, -⟩ := idx_facts t
  have h : ((cfg0.win 1).blk t).view.emb (ix2 p k) = (ix2 r k : S1600000x64.Idx) := funext fun a => Fin.ext (by
    match a with
    | ⟨0, _⟩ => show win0_1.index t (0 : Fin 2) * 3200 + 1 * p.val = r.val; rw [e0, hr]; omega
    | ⟨1, _⟩ => show win0_1.index t (1 : Fin 2) * 64 + 1 * k.val = k.val; rw [e1]; omega)
  unfold iblk
  rw [View.read_apply, h]
  exact cast_eq _ _

/-- Row `p` of the edge-attribute block at point `t` is row `3200 t + p` of the edge attributes. -/
theorem blk2_apply (c : Dev nD) (t : Fin cfg0.N) (p : Fin 3200) (k : Fin 32) (r : Fin 1600000) (hr : r.val = t.val * 3200 + p.val) :
    (iblk m c 2 t : Vec Ideal S3200x32 .f32) (ix2 p k) = (V m c (Pipeline.arrRef spec0 2) : S1600000x32.Idx → EReal) (ix2 r k) := by
  obtain ⟨-, -, -, -, e0, e1, -⟩ := idx_facts t
  have h : ((cfg0.win 2).blk t).view.emb (ix2 p k) = (ix2 r k : S1600000x32.Idx) := funext fun a => Fin.ext (by
    match a with
    | ⟨0, _⟩ => show win0_2.index t (0 : Fin 2) * 3200 + 1 * p.val = r.val; rw [e0, hr]; omega
    | ⟨1, _⟩ => show win0_2.index t (1 : Fin 2) * 32 + 1 * k.val = k.val; rw [e1]; omega)
  unfold iblk
  rw [View.read_apply, h]
  exact cast_eq _ _

/-- The first weight matrix is loaded whole at every point. -/
theorem blk3_apply (c : Dev nD) (t : Fin cfg0.N) (j : Fin 160) (k : Fin 64) :
    (iblk m c 3 t : Vec Ideal S160x64 .f32) (ix2 j k) = (V m c (Pipeline.arrRef spec0 3) : S160x64.Idx → EReal) (ix2 j k) := by
  obtain ⟨-, -, -, -, -, -, e0, e1, -⟩ := idx_facts t
  have h : ((cfg0.win 3).blk t).view.emb (ix2 j k) = (ix2 j k : S160x64.Idx) := funext fun a => Fin.ext (by
    match a with
    | ⟨0, _⟩ => show win0_3.index t (0 : Fin 2) * 160 + 1 * j.val = j.val; rw [e0]; omega
    | ⟨1, _⟩ => show win0_3.index t (1 : Fin 2) * 64 + 1 * k.val = k.val; rw [e1]; omega)
  unfold iblk
  rw [View.read_apply, h]
  exact cast_eq _ _

/-- The first bias row is loaded whole at every point. -/
theorem blk4_apply (c : Dev nD) (t : Fin cfg0.N) (k : Fin 64) :
    (iblk m c 4 t : Vec Ideal S1x64 .f32) (ix2 0 k) = (V m c (Pipeline.arrRef spec0 4) : S1x64.Idx → EReal) (ix2 0 k) := by
  obtain ⟨-, -, -, -, -, -, -, -, e0, e1, -⟩ := idx_facts t
  have h : ((cfg0.win 4).blk t).view.emb (ix2 0 k) = (ix2 0 k : S1x64.Idx) := funext fun a => Fin.ext (by
    match a with
    | ⟨0, _⟩ => show win0_4.index t (0 : Fin 2) * 1 + 1 * 0 = 0; rw [e0]
    | ⟨1, _⟩ => show win0_4.index t (1 : Fin 2) * 64 + 1 * k.val = k.val; rw [e1]; omega)
  unfold iblk
  rw [View.read_apply, h]
  exact cast_eq _ _

/-- The second weight matrix is loaded whole at every point. -/
theorem blk5_apply (c : Dev nD) (t : Fin cfg0.N) (k : Fin 64) (q : Fin 4) :
    (iblk m c 5 t : Vec Ideal S64x4 .f32) (ix2 k q) = (V m c (Pipeline.arrRef spec0 5) : S64x4.Idx → EReal) (ix2 k q) := by
  obtain ⟨-, -, -, -, -, -, -, -, -, -, e0, e1, -⟩ := idx_facts t
  have h : ((cfg0.win 5).blk t).view.emb (ix2 k q) = (ix2 k q : S64x4.Idx) := funext fun a => Fin.ext (by
    match a with
    | ⟨0, _⟩ => show win0_5.index t (0 : Fin 2) * 64 + 1 * k.val = k.val; rw [e0]; omega
    | ⟨1, _⟩ => show win0_5.index t (1 : Fin 2) * 4 + 1 * q.val = q.val; rw [e1]; omega)
  unfold iblk
  rw [View.read_apply, h]
  exact cast_eq _ _

/-- The second bias row is loaded whole at every point. -/
theorem blk6_apply (c : Dev nD) (t : Fin cfg0.N) (q : Fin 4) :
    (iblk m c 6 t : Vec Ideal S1x4 .f32) (ix2 0 q) = (V m c (Pipeline.arrRef spec0 6) : S1x4.Idx → EReal) (ix2 0 q) := by
  obtain ⟨-, -, -, -, -, -, -, -, -, -, -, -, e0, e1, -⟩ := idx_facts t
  have h : ((cfg0.win 6).blk t).view.emb (ix2 0 q) = (ix2 0 q : S1x4.Idx) := funext fun a => Fin.ext (by
    match a with
    | ⟨0, _⟩ => show win0_6.index t (0 : Fin 2) * 1 + 1 * 0 = 0; rw [e0]
    | ⟨1, _⟩ => show win0_6.index t (1 : Fin 2) * 4 + 1 * q.val = q.val; rw [e1]; omega)
  unfold iblk
  rw [View.read_apply, h]
  exact cast_eq _ _

/-! ## The result array -/

/-- What the result array ends holding: entry `(r, q)` is the two-layer network on the features of edge `r`, over the
    arrays as the region finds them. -/
def result (c : Dev nD) : S1600000x4.Idx → EReal := fun i =>
  mlpRow (R := 1600000) (V m c (Pipeline.arrRef spec0 0) : S1600000x64.Idx → EReal) (V m c (Pipeline.arrRef spec0 1) : S1600000x64.Idx → EReal)
    (V m c (Pipeline.arrRef spec0 2) : S1600000x32.Idx → EReal) (V m c (Pipeline.arrRef spec0 3) : S160x64.Idx → EReal)
    (fun k => (V m c (Pipeline.arrRef spec0 4) : S1x64.Idx → EReal) (ix2 0 k)) (V m c (Pipeline.arrRef spec0 5) : S64x4.Idx → EReal)
    (fun q => (V m c (Pipeline.arrRef spec0 6) : S1x4.Idx → EReal) (ix2 0 q)) (i 0) (i 1)

/-- `result` at the entry `(r, q)`. -/
theorem result_ix2 (c : Dev nD) (r : Fin 1600000) (q : Fin 4) :
    result m c (ix2 r q)
      = mlpRow (R := 1600000) (V m c (Pipeline.arrRef spec0 0) : S1600000x64.Idx → EReal) (V m c (Pipeline.arrRef spec0 1) : S1600000x64.Idx → EReal)
          (V m c (Pipeline.arrRef spec0 2) : S1600000x32.Idx → EReal) (V m c (Pipeline.arrRef spec0 3) : S160x64.Idx → EReal)
          (fun k => (V m c (Pipeline.arrRef spec0 4) : S1x64.Idx → EReal) (ix2 0 k)) (V m c (Pipeline.arrRef spec0 5) : S64x4.Idx → EReal)
          (fun q' => (V m c (Pipeline.arrRef spec0 6) : S1x4.Idx → EReal) (ix2 0 q')) r q := rfl

/-- What point `t` writes back is block `t` of `result`. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S3200x64) hz, View.ld_unit_zero (S := S3200x32) hz, View.ld_unit_zero (S := S160x64) hz,
    View.ld_unit_zero (S := S1x64) hz, View.ld_unit_zero (S := S64x4) hz, View.ld_unit_zero (S := S1x4) hz]
  funext y
  obtain ⟨p, q, rfl⟩ : ∃ (p : Fin 3200) (q : Fin 4), y = ix2 p q := ⟨y 0, y 1, eq_ix2 y⟩
  obtain ⟨-, -, -, -, -, -, -, -, -, -, -, -, -, -, e0, e1⟩ := idx_facts t
  have hr : t.val * 3200 + p.val < 1600000 := by
    have ht : t.val < cfg0.N := t.isLt
    have hN : cfg0.N = 500 := N_0
    have hp := p.isLt
    omega
  have hemb : ((cfg0.win 7).blk t).view.emb (ix2 p q) = (ix2 (⟨t.val * 3200 + p.val, hr⟩ : Fin 1600000) q : S1600000x4.Idx) :=
    funext fun a => Fin.ext (by
      match a with
      | ⟨0, _⟩ => show win0_7.index t (0 : Fin 2) * 3200 + 1 * p.val = t.val * 3200 + p.val; rw [e0]; omega
      | ⟨1, _⟩ => show win0_7.index t (1 : Fin 2) * 4 + 1 * q.val = q.val; rw [e1]; omega)
  rw [View.read_apply, hemb, result_ix2]
  refine Eq.trans ?_ (cast_eq _ _).symm
  refine (pay_apply (iblk m c 0 t) (iblk m c 1 t) (iblk m c 2 t) (iblk m c 3 t) (iblk m c 4 t) (iblk m c 5 t) (iblk m c 6 t) p q).trans ?_
  exact mlpRow_congr (R := 3200) (R' := 1600000)
    (iblk m c 0 t : Vec Ideal S3200x64 .f32) (iblk m c 1 t : Vec Ideal S3200x64 .f32) (iblk m c 2 t : Vec Ideal S3200x32 .f32)
    (V m c (Pipeline.arrRef spec0 0) : S1600000x64.Idx → EReal) (V m c (Pipeline.arrRef spec0 1) : S1600000x64.Idx → EReal)
    (V m c (Pipeline.arrRef spec0 2) : S1600000x32.Idx → EReal)
    (iblk m c 3 t : Vec Ideal S160x64 .f32) (V m c (Pipeline.arrRef spec0 3) : S160x64.Idx → EReal)
    (fun k => (iblk m c 4 t : Vec Ideal S1x64 .f32) (ix2 0 k)) (fun k => (V m c (Pipeline.arrRef spec0 4) : S1x64.Idx → EReal) (ix2 0 k))
    (iblk m c 5 t : Vec Ideal S64x4 .f32) (V m c (Pipeline.arrRef spec0 5) : S64x4.Idx → EReal)
    (fun q' => (iblk m c 6 t : Vec Ideal S1x4 .f32) (ix2 0 q')) (fun q' => (V m c (Pipeline.arrRef spec0 6) : S1x4.Idx → EReal) (ix2 0 q'))
    p (⟨t.val * 3200 + p.val, hr⟩ : Fin 1600000)
    (fun k => blk0_apply m c t p k _ rfl) (fun k => blk1_apply m c t p k _ rfl) (fun k => blk2_apply m c t p k _ rfl)
    (fun j k => blk3_apply m c t j k) (fun k => blk4_apply m c t k) (fun k q' => blk5_apply m c t k q') (fun q' => blk6_apply m c t q') q

/-- An index of the result array is in point `t`'s block iff its row is among the block's 3200 rows. -/
theorem mem_blk (t : Fin cfg0.N) (i : S1600000x4.Idx) :
    i ∈ ((cfg0.win 7).blk t).view.set ↔ ∀ a : Fin 2, win0_7.index t a * S3200x4.size a ≤ (i a).val ∧ (i a).val < win0_7.index t a * S3200x4.size a + S3200x4.size a := by
  show i ∈ ((View.whole main_v131).slice (win0_7.rect t)).set ↔ _
  rw [View.set_slice_whole, Rect.mem_set_unit]
  exact Iff.rfl

/-- Every row of the result is in the block of the point `row / 3200`. -/
theorem cover (i : S1600000x4.Idx) : ∃ t : Fin cfg0.N, (cfg0.win 7).flush t = true ∧ i ∈ ((cfg0.win 7).blk t).view.set := by
  have hi0 : (i 0).val < 1600000 := (i 0).isLt
  have hi1 : (i 1).val < 4 := (i 1).isLt
  have hN : cfg0.N = 500 := N_0
  let t : Fin cfg0.N := ⟨(i 0).val / 3200, by rw [hN]; omega⟩
  obtain ⟨-, -, -, -, -, -, -, -, -, -, -, -, -, -, e0, e1⟩ := idx_facts t
  have ht : t.val = (i 0).val / 3200 := rfl
  refine ⟨t, flush0_7 t, ?_⟩
  rw [mem_blk]
  intro a
  match a with
  | ⟨0, _⟩ => show win0_7.index t (0 : Fin 2) * 3200 ≤ (i 0).val ∧ (i 0).val < win0_7.index t (0 : Fin 2) * 3200 + 3200; rw [e0, ht]; omega
  | ⟨1, _⟩ => show win0_7.index t (1 : Fin 2) * 4 ≤ (i 1).val ∧ (i 1).val < win0_7.index t (1 : Fin 2) * 4 + 4; rw [e1]; omega

/-- The result array after the run. -/
theorem final (c : Dev nD) : (dats m 0 c).arrAt 7 cfg0.N = result m c :=
  (dats m 0 c).arrAt_eq_of_cover 7 (result m c) (fun t _ => flushed_eq m c t) cover

end Cert.KernelIdeal.Blocks

end
-- ==== Proof.RefTail.lean ====
/-
  The reference's last operations, one entry at a time.

  After the node stage the reference gathers the embeddings of each edge's two end nodes, lays them beside the edge's
  attributes (160 columns), multiplies by `W1`, adds `b1`, rectifies, multiplies by `W2` and adds `b2`. These ten
  operations are one function `tail` of the two gathered arrays, the attributes, the weights and the biases — whatever
  those arrays are. Read at an entry `(r, q)` — each matrix product as the sum over its contracted axis, each bias
  spread over the rows — it is the two-layer network `mlpRow` on the features of edge `r`.
-/
import proofs.«177977_j57612691309353_2_alg».proof.Proof.Gen.ReferenceIdeal
import proofs.«177977_j57612691309353_2_alg».proof.Proof.EdgeMlp
import Idealize.ShloMosaic.Lib.Pipeline.Value
import Idealize.ShloMosaic.Lib.ValueIdx
import Idealize.ShloMosaic.PureOps.Ideal.Laws

noncomputable section

namespace Cert.ReferenceIdeal.Tail

open Cert.ReferenceIdeal Cert.ReferenceIdeal.Gen Idealize.ShloMosaic Idealize.ShloMosaic.ValueIdx Idealize.ShloMosaic.ConcatRows Cert.EdgeMlp

/-- The reference's last ten operations, as one function of the arrays they read. -/
def tail {F : FTy → Type} [FloatOps F] (hs hd : (⟨S1600000x64, .f32⟩ : BufTy).Contents (Elt F)) (ea : (⟨S1600000x32, .f32⟩ : BufTy).Contents (Elt F))
    (W1 : (⟨S160x64, .f32⟩ : BufTy).Contents (Elt F)) (b1 : (⟨S64, .f32⟩ : BufTy).Contents (Elt F))
    (W2 : (⟨S64x4, .f32⟩ : BufTy).Contents (Elt F)) (b2 : (⟨S4, .f32⟩ : BufTy).Contents (Elt F)) :
    (⟨S1600000x4, .f32⟩ : BufTy).Contents (Elt F) :=
  addf (Host.dotGeneral dot_S1600000x64_S64x4_S1600000x4_1_0_0_1_n_n none
      (maximumf
        (addf (Host.dotGeneral dot_S1600000x160_S160x64_S1600000x64_1_0_0_1_n_n none
            (concatenate S1600000x160 1 [⟨S1600000x64, hs⟩, ⟨S1600000x64, hd⟩, ⟨S1600000x32, ea⟩] concatenates_S1600000x64_S1600000x64_S1600000x32_S1600000x160_d1) W1)
          (broadcastInDim S1600000x64 ![0, 1] bcast_S1x64_S1600000x64_0_1 (broadcastInDim S1x64 ![1] bcast_S64_S1x64_1 b1)))
        (broadcastInDim S1600000x64 ![] bcast_S_S1600000x64 (constant S_ .f32 0x00000000#32)))
      W2)
    (broadcastInDim S1600000x4 ![0, 1] bcast_S1x4_S1600000x4_0_1 (broadcastInDim S1x4 ![1] bcast_S4_S1x4_1 b2))

/-! ## The two products, at an entry -/

theorem dot1_lhs0 (i : S1600000x64.Idx) (q : dot_S1600000x160_S160x64_S1600000x64_1_0_0_1_n_n.contr.Idx) : (dot_S1600000x160_S160x64_S1600000x64_1_0_0_1_n_n.lhsIdx i q 0).val = (i 0).val := by
  unfold DotDims.lhsIdx
  rw [dif_neg (show ¬(0 : Fin S1600000x160.rank) ∈ dot_S1600000x160_S160x64_S1600000x64_1_0_0_1_n_n.lhsBatch by decide), dif_pos (show (0 : Fin S1600000x160.rank) ∈ dot_S1600000x160_S160x64_S1600000x64_1_0_0_1_n_n.lhsNonContracting by decide)]
  rfl
theorem dot1_lhs1 (i : S1600000x64.Idx) (q : dot_S1600000x160_S160x64_S1600000x64_1_0_0_1_n_n.contr.Idx) : (dot_S1600000x160_S160x64_S1600000x64_1_0_0_1_n_n.lhsIdx i q 1).val = (q ⟨0, by decide⟩).val :=
  dot_S1600000x160_S160x64_S1600000x64_1_0_0_1_n_n.lhsIdx_val_of_single rfl i q
theorem dot1_rhs0 (i : S1600000x64.Idx) (q : dot_S1600000x160_S160x64_S1600000x64_1_0_0_1_n_n.contr.Idx) : (dot_S1600000x160_S160x64_S1600000x64_1_0_0_1_n_n.rhsIdx i q 0).val = (q ⟨0, by decide⟩).val :=
  dot_S1600000x160_S160x64_S1600000x64_1_0_0_1_n_n.rhsIdx_val_of_single rfl i q
theorem dot1_rhs1 (i : S1600000x64.Idx) (q : dot_S1600000x160_S160x64_S1600000x64_1_0_0_1_n_n.contr.Idx) : (dot_S1600000x160_S160x64_S1600000x64_1_0_0_1_n_n.rhsIdx i q 1).val = (i 1).val := by
  unfold DotDims.rhsIdx
  rw [dif_neg (show ¬(1 : Fin S160x64.rank) ∈ dot_S1600000x160_S160x64_S1600000x64_1_0_0_1_n_n.rhsBatch by decide), dif_pos (show (1 : Fin S160x64.rank) ∈ dot_S1600000x160_S160x64_S1600000x64_1_0_0_1_n_n.rhsNonContracting by decide)]
  rfl

theorem dot1_apply (a : FVec Ideal S1600000x160 .f32) (w : FVec Ideal S160x64 .f32) (r : Fin 1600000) (k : Fin 64) :
    Host.dotGeneral (F := Ideal) dot_S1600000x160_S160x64_S1600000x64_1_0_0_1_n_n none a w (ix2 r k) = ∑ j : Fin 160, a (ix2 r j) * w (ix2 j k) := by
  simp only [Host.dotGeneral]
  rw [Ideal.dotGeneral_apply, ← Equiv.sum_comp (contrEquiv1 dot_S1600000x160_S160x64_S1600000x64_1_0_0_1_n_n 160 rfl rfl).symm]
  refine Finset.sum_congr rfl fun j _ => ?_
  have hk := contrEquiv1_symm_val dot_S1600000x160_S160x64_S1600000x64_1_0_0_1_n_n 160 rfl rfl j
  have el : dot_S1600000x160_S160x64_S1600000x64_1_0_0_1_n_n.lhsIdx (ix2 r k) ((contrEquiv1 dot_S1600000x160_S160x64_S1600000x64_1_0_0_1_n_n 160 rfl rfl).symm j) = ix2 r j := funext fun a => Fin.ext (by
    match a with
    | ⟨0, _⟩ => exact dot1_lhs0 _ _
    | ⟨1, _⟩ => exact (dot1_lhs1 _ _).trans hk)
  have er : dot_S1600000x160_S160x64_S1600000x64_1_0_0_1_n_n.rhsIdx (ix2 r k) ((contrEquiv1 dot_S1600000x160_S160x64_S1600000x64_1_0_0_1_n_n 160 rfl rfl).symm j) = ix2 j k := funext fun a => Fin.ext (by
    match a with
    | ⟨0, _⟩ => exact (dot1_rhs0 _ _).trans hk
    | ⟨1, _⟩ => exact dot1_rhs1 _ _)
  rw [el, er]

theorem dot2_lhs0 (i : S1600000x4.Idx) (q : dot_S1600000x64_S64x4_S1600000x4_1_0_0_1_n_n.contr.Idx) : (dot_S1600000x64_S64x4_S1600000x4_1_0_0_1_n_n.lhsIdx i q 0).val = (i 0).val := by
  unfold DotDims.lhsIdx
  rw [dif_neg (show ¬(0 : Fin S1600000x64.rank) ∈ dot_S1600000x64_S64x4_S1600000x4_1_0_0_1_n_n.lhsBatch by decide), dif_pos (show (0 : Fin S1600000x64.rank) ∈ dot_S1600000x64_S64x4_S1600000x4_1_0_0_1_n_n.lhsNonContracting by decide)]
  rfl
theorem dot2_lhs1 (i : S1600000x4.Idx) (q : dot_S1600000x64_S64x4_S1600000x4_1_0_0_1_n_n.contr.Idx) : (dot_S1600000x64_S64x4_S1600000x4_1_0_0_1_n_n.lhsIdx i q 1).val = (q ⟨0, by decide⟩).val :=
  dot_S1600000x64_S64x4_S1600000x4_1_0_0_1_n_n.lhsIdx_val_of_single rfl i q
theorem dot2_rhs0 (i : S1600000x4.Idx) (q : dot_S1600000x64_S64x4_S1600000x4_1_0_0_1_n_n.contr.Idx) : (dot_S1600000x64_S64x4_S1600000x4_1_0_0_1_n_n.rhsIdx i q 0).val = (q ⟨0, by decide⟩).val :=
  dot_S1600000x64_S64x4_S1600000x4_1_0_0_1_n_n.rhsIdx_val_of_single rfl i q
theorem dot2_rhs1 (i : S1600000x4.Idx) (q : dot_S1600000x64_S64x4_S1600000x4_1_0_0_1_n_n.contr.Idx) : (dot_S1600000x64_S64x4_S1600000x4_1_0_0_1_n_n.rhsIdx i q 1).val = (i 1).val := by
  unfold DotDims.rhsIdx
  rw [dif_neg (show ¬(1 : Fin S64x4.rank) ∈ dot_S1600000x64_S64x4_S1600000x4_1_0_0_1_n_n.rhsBatch by decide), dif_pos (show (1 : Fin S64x4.rank) ∈ dot_S1600000x64_S64x4_S1600000x4_1_0_0_1_n_n.rhsNonContracting by decide)]
  rfl

theorem dot2_apply (a : FVec Ideal S1600000x64 .f32) (w : FVec Ideal S64x4 .f32) (r : Fin 1600000) (q : Fin 4) :
    Host.dotGeneral (F := Ideal) dot_S1600000x64_S64x4_S1600000x4_1_0_0_1_n_n none a w (ix2 r q) = ∑ k : Fin 64, a (ix2 r k) * w (ix2 k q) := by
  simp only [Host.dotGeneral]
  rw [Ideal.dotGeneral_apply, ← Equiv.sum_comp (contrEquiv1 dot_S1600000x64_S64x4_S1600000x4_1_0_0_1_n_n 64 rfl rfl).symm]
  refine Finset.sum_congr rfl fun k _ => ?_
  have hk := contrEquiv1_symm_val dot_S1600000x64_S64x4_S1600000x4_1_0_0_1_n_n 64 rfl rfl k
  have el : dot_S1600000x64_S64x4_S1600000x4_1_0_0_1_n_n.lhsIdx (ix2 r q) ((contrEquiv1 dot_S1600000x64_S64x4_S1600000x4_1_0_0_1_n_n 64 rfl rfl).symm k) = ix2 r k := funext fun a => Fin.ext (by
    match a with
    | ⟨0, _⟩ => exact dot2_lhs0 _ _
    | ⟨1, _⟩ => exact (dot2_lhs1 _ _).trans hk)
  have er : dot_S1600000x64_S64x4_S1600000x4_1_0_0_1_n_n.rhsIdx (ix2 r q) ((contrEquiv1 dot_S1600000x64_S64x4_S1600000x4_1_0_0_1_n_n 64 rfl rfl).symm k) = ix2 k q := funext fun a => Fin.ext (by
    match a with
    | ⟨0, _⟩ => exact (dot2_rhs0 _ _).trans hk
    | ⟨1, _⟩ => exact dot2_rhs1 _ _)
  rw [el, er]

/-! ## The biases and the rectifier's zero, spread over the rows -/

theorem bias1_apply (b : FVec Ideal S64 .f32) (r : Fin 1600000) (k : Fin 64) :
    broadcastInDim S1600000x64 ![0, 1] bcast_S1x64_S1600000x64_0_1 (broadcastInDim S1x64 ![1] bcast_S64_S1x64_1 b) (ix2 r k) = b (ix1 k) :=
  (broadcastInDim_apply _ bcast_S1x64_S1600000x64_0_1 _ (ix2 r k) (ix2 0 k) (fun a => match a with
    | ⟨0, _⟩ => by show 0 = if (1 : Nat) = 1 then 0 else r.val; rw [if_pos rfl]
    | ⟨1, _⟩ => by show k.val = if (64 : Nat) = 1 then 0 else k.val; rw [if_neg (by decide)])).trans
  (broadcastInDim_apply _ bcast_S64_S1x64_1 b (ix2 0 k) (ix1 k) (fun a => match a with
    | ⟨0, _⟩ => by show k.val = if (64 : Nat) = 1 then 0 else k.val; rw [if_neg (by decide)]))

theorem bias2_apply (b : FVec Ideal S4 .f32) (r : Fin 1600000) (q : Fin 4) :
    broadcastInDim S1600000x4 ![0, 1] bcast_S1x4_S1600000x4_0_1 (broadcastInDim S1x4 ![1] bcast_S4_S1x4_1 b) (ix2 r q) = b (ix1 q) :=
  (broadcastInDim_apply _ bcast_S1x4_S1600000x4_0_1 _ (ix2 r q) (ix2 0 q) (fun a => match a with
    | ⟨0, _⟩ => by show 0 = if (1 : Nat) = 1 then 0 else r.val; rw [if_pos rfl]
    | ⟨1, _⟩ => by show q.val = if (4 : Nat) = 1 then 0 else q.val; rw [if_neg (by decide)])).trans
  (broadcastInDim_apply _ bcast_S4_S1x4_1 b (ix2 0 q) (ix1 q) (fun a => match a with
    | ⟨0, _⟩ => by show q.val = if (4 : Nat) = 1 then 0 else q.val; rw [if_neg (by decide)]))

theorem zero_apply (r : Fin 1600000) (k : Fin 64) :
    broadcastInDim S1600000x64 ![] bcast_S_S1600000x64 (constant (F := Ideal) S_ .f32 0x00000000#32) (ix2 r k) = Ideal.ofBits .f32 0x00000000#32 :=
  broadcastInDim_apply _ bcast_S_S1600000x64 _ (ix2 r k) (fun a => a.elim0) (fun a => a.elim0)

/-! ## The result at an entry -/

/-- Entry `(r, q)` of the reference's last operations is the two-layer network on the features of edge `r`. The
    two gathered arrays are arbitrary here. -/
theorem tail_apply (hs hd : FVec Ideal S1600000x64 .f32) (ea : FVec Ideal S1600000x32 .f32) (W1 : FVec Ideal S160x64 .f32)
    (b1 : FVec Ideal S64 .f32) (W2 : FVec Ideal S64x4 .f32) (b2 : FVec Ideal S4 .f32) (r : Fin 1600000) (q : Fin 4) :
    tail (F := Ideal) hs hd ea W1 b1 W2 b2 (ix2 r q)
      = mlpRow hs hd ea W1 (fun k => b1 (ix1 k)) W2 (fun q' => b2 (ix1 q')) r q := by
  unfold tail mlpRow
  rw [addf_apply, dot2_apply, bias2_apply]
  refine congrArg (· + b2 (ix1 q)) (Finset.sum_congr rfl fun k _ => ?_)
  rw [maximumf_apply, addf_apply, dot1_apply, bias1_apply, zero_apply]
  refine congrArg (fun s => max (s + b1 (ix1 k)) _ * W2 (ix2 k q)) (Finset.sum_congr rfl fun j _ => ?_)
  exact congrArg (· * W1 (ix2 j k)) (concat3_apply _ _ _ concatenates_S1600000x64_S1600000x64_S1600000x32_S1600000x160_d1 r j)

end Cert.ReferenceIdeal.Tail

end
-- ==== Proof.RefRun.lean ====
/-
  The reference's run.

  The reference is a straight line of host operations: slices, index arithmetic, gathers, scatter-adds, matrix
  products, the gates' pointwise functions, and the edge predictor. Listed in order (`ops`), they determine what each
  buffer holds at the end from what the arguments held at the start: every weakly fair execution terminates with
  each buffer at the operations' value of the launch contents (`run_all`). No operation writes an argument
  (`kept_argK`), and the result buffer is the last ten operations — the function `Tail.tail` — of the two gathered
  buffers and five of the arguments (`result_eq`): the node stage itself is never opened here.
-/
import proofs.«177977_j57612691309353_2_alg».proof.Proof.Gen.ReferenceIdeal
import proofs.«177977_j57612691309353_2_alg».proof.Proof.LibConcatRows
import proofs.«177977_j57612691309353_2_alg».proof.Proof.RefTail
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo
open Cert.ReferenceIdeal.Tail

variable {F : FTy → Type} [FloatOps F]

-- the program joins arrays several times; the evaluations below have to rewrite inside those joins
attribute [local congr] Idealize.ShloMosaic.ConcatRows.concatenate_congr_operands

/-- @main's 167 operations, in order (a called function's operations stand in its call's place, spelt `TRef.…`). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x3F800000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (maximumf : (⟨S100000, .f32⟩ : BufTy).Contents (Elt F) → (⟨S100000, .f32⟩ : BufTy).Contents (Elt F) → (⟨S100000, .f32⟩ : BufTy).Contents (Elt F)),
    unary main_v12 main_v13 (Host.rsqrt : (⟨S100000, .f32⟩ : BufTy).Contents (Elt F) → (⟨S100000, .f32⟩ : BufTy).Contents (Elt F)),
    nullary main_c (constantI S_ 32 0#32),
    unary main_c main_v14 (broadcastInDim S1700000 ![] bcast_S_S1700000 : (⟨S_, .i32⟩ : BufTy).Contents (Elt F) → (⟨S1700000, .i32⟩ : BufTy).Contents (Elt F)),
    binary main_v5 main_v14 main_v15 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v16 (broadcastInDim S1700000 ![] bcast_S_S1700000 : (⟨S_, .i32⟩ : BufTy).Contents (Elt F) → (⟨S1700000, .i32⟩ : BufTy).Contents (Elt F)),
    binary main_v5 main_v16 main_v17 (addi : (⟨S1700000, .i32⟩ : BufTy).Contents (Elt F) → (⟨S1700000, .i32⟩ : BufTy).Contents (Elt F) → (⟨S1700000, .i32⟩ : BufTy).Contents (Elt F)),
    ternary main_v15 main_v17 main_v5 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v18 main_v19 (broadcastInDim S1700000x1 ![0] bcast_S1700000_S1700000x1_0 : (⟨S1700000, .i32⟩ : BufTy).Contents (Elt F) → (⟨S1700000x1, .i32⟩ : BufTy).Contents (Elt F)),
    binary main_v13 main_v19 main_v20 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (addi : (⟨S1700000, .i32⟩ : BufTy).Contents (Elt F) → (⟨S1700000, .i32⟩ : BufTy).Contents (Elt F) → (⟨S1700000, .i32⟩ : BufTy).Contents (Elt F)),
    ternary main_v22 main_v24 main_v6 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v25 main_v26 (broadcastInDim S1700000x1 ![0] bcast_S1700000_S1700000x1_0 : (⟨S1700000, .i32⟩ : BufTy).Contents (Elt F) → (⟨S1700000x1, .i32⟩ : BufTy).Contents (Elt F)),
    binary main_v13 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v20 main_v27 main_v28 (mulf : (⟨S1700000, .f32⟩ : BufTy).Contents (Elt F) → (⟨S1700000, .f32⟩ : BufTy).Contents (Elt F) → (⟨S1700000, .f32⟩ : BufTy).Contents (Elt F)),
    nullary main_cst_5 (constant S_ .f32 0x00000000#32),
    unary main_cst_5 main_v29 (broadcastInDim S100000x64 ![] bcast_S_S100000x64 : (⟨S_, .f32⟩ : BufTy).Contents (Elt F) → (⟨S100000x64, .f32⟩ : BufTy).Contents (Elt F)),
    binary main_arg0 main_arg3 main_v30 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v28 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    binary main_v46 main_v29 main_v47 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    binary main_v47 main_arg9 main_v48 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg10 main_v49 (broadcastInDim S1x64 ![1] bcast_S64_S1x64_1 : (⟨S64, .f32⟩ : BufTy).Contents (Elt F) → (⟨S1x64, .f32⟩ : BufTy).Contents (Elt F)),
    unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v48 main_v50 main_v51 (addf : (⟨S100000x64, .f32⟩ : BufTy).Contents (Elt F) → (⟨S100000x64, .f32⟩ : BufTy).Contents (Elt F) → (⟨S100000x64, .f32⟩ : BufTy).Contents (Elt F)),
    unary main_v51 main_v52 (Host.negf : (⟨S100000x64, .f32⟩ : BufTy).Contents (Elt F) → (⟨S100000x64, .f32⟩ : BufTy).Contents (Elt F)),
    unary main_v52 main_v53 (Host.exp : (⟨S100000x64, .f32⟩ : BufTy).Contents (Elt F) → (⟨S100000x64, .f32⟩ : BufTy).Contents (Elt F)),
    nullary main_cst_9 (constant S_ .f32 0x3F800000#32),
    unary main_cst_9 main_v54 (broadcastInDim S100000x64 ![] bcast_S_S100000x64 : (⟨S_, .f32⟩ : BufTy).Contents (Elt F) → (⟨S100000x64, .f32⟩ : BufTy).Contents (Elt F)),
    binary main_v54 main_v53 main_v55 (addf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x3F800000#32),
    unary main_cst_10 main_v56 (broadcastInDim S100000x64 ![] bcast_S_S100000x64 : (⟨S_, .f32⟩ : BufTy).Contents (Elt F) → (⟨S100000x64, .f32⟩ : BufTy).Contents (Elt F)),
    binary main_v56 main_v55 main_v57 (Host.divf : (⟨S100000x64, .f32⟩ : BufTy).Contents (Elt F) → (⟨S100000x64, .f32⟩ : BufTy).Contents (Elt F) → (⟨S100000x64, .f32⟩ : BufTy).Contents (Elt F)),
    binary main_arg0 main_arg5 main_v58 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_11 (constantI S_ 32 0#32),
    unary main_c_11 main_v59 (broadcastInDim S1700000 ![] bcast_S_S1700000 : (⟨S_, .i32⟩ : BufTy).Contents (Elt F) → (⟨S1700000, .i32⟩ : BufTy).Contents (Elt F)),
    binary main_v5 main_v59 main_v60 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v61 (broadcastInDim S1700000 ![] bcast_S_S1700000 : (⟨S_, .i32⟩ : BufTy).Contents (Elt F) → (⟨S1700000, .i32⟩ : BufTy).Contents (Elt F)),
    binary main_v5 main_v61 main_v62 (addi : (⟨S1700000, .i32⟩ : BufTy).Contents (Elt F) → (⟨S1700000, .i32⟩ : BufTy).Contents (Elt F) → (⟨S1700000, .i32⟩ : BufTy).Contents (Elt F)),
    ternary main_v60 main_v62 main_v5 main_v63 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v63 main_v64 (broadcastInDim S1700000x1 ![0] bcast_S1700000_S1700000x1_0 : (⟨S1700000, .i32⟩ : BufTy).Contents (Elt F) → (⟨S1700000x1, .i32⟩ : BufTy).Contents (Elt F)),
    binary main_v58 main_v64 main_v65 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v28 main_v66 (broadcastInDim S1700000x1 ![0] bcast_S1700000_S1700000x1_0 : (⟨S1700000, .f32⟩ : BufTy).Contents (Elt F) → (⟨S1700000x1, .f32⟩ : BufTy).Contents (Elt F)),
    unary main_v66 main_v67 (broadcastInDim S1700000x64 ![0, 1] bcast_S1700000x1_S1700000x64_0_1 : (⟨S1700000x1, .f32⟩ : BufTy).Contents (Elt F) → (⟨S1700000x64, .f32⟩ : BufTy).Contents (Elt F)),
    binary main_v65 main_v67 main_v68 (mulf : (⟨S1700000x64, .f32⟩ : BufTy).Contents (Elt F) → (⟨S1700000x64, .f32⟩ : BufTy).Contents (Elt F) → (⟨S1700000x64, .f32⟩ : BufTy).Contents (Elt F)),
    nullary main_cst_13 (constant S_ .f32 0x00000000#32),
    unary main_cst_13 main_v69 (broadcastInDim S100000x64 ![] bcast_S_S100000x64 : (⟨S_, .f32⟩ : BufTy).Contents (Elt F) → (⟨S100000x64, .f32⟩ : BufTy).Contents (Elt F)),
    unary main_v6 main_v70 (broadcastInDim S1700000x1 ![0] bcast_S1700000_S1700000x1_0 : (⟨S1700000, .i32⟩ : BufTy).Contents (Elt F) → (⟨S1700000x1, .i32⟩ : BufTy).Contents (Elt F)),
    ternary main_v69 main_v70 main_v68 main_v71 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg6 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v71 main_v73 main_v74 (addf : (⟨S100000x64, .f32⟩ : BufTy).Contents (Elt F) → (⟨S100000x64, .f32⟩ : BufTy).Contents (Elt F) → (⟨S100000x64, .f32⟩ : BufTy).Contents (Elt F)),
    binary main_v74 main_v29 main_v75 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    binary main_v75 main_arg11 main_v76 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg12 main_v77 (broadcastInDim S1x64 ![1] bcast_S64_S1x64_1 : (⟨S64, .f32⟩ : BufTy).Contents (Elt F) → (⟨S1x64, .f32⟩ : BufTy).Contents (Elt F)),
    unary main_v77 main_v78 (broadcastInDim S100000x64 ![0, 1] bcast_S1x64_S100000x64_0_1 : (⟨S1x64, .f32⟩ : BufTy).Contents (Elt F) → (⟨S100000x64, .f32⟩ : BufTy).Contents (Elt F)),
    binary main_v76 main_v78 main_v79 (addf : (⟨S100000x64, .f32⟩ : BufTy).Contents (Elt F) → (⟨S100000x64, .f32⟩ : BufTy).Contents (Elt F) → (⟨S100000x64, .f32⟩ : BufTy).Contents (Elt F)),
    unary main_v79 main_v80 (Host.negf : (⟨S100000x64, .f32⟩ : BufTy).Contents (Elt F) → (⟨S100000x64, .f32⟩ : BufTy).Contents (Elt F)),
    unary main_v80 main_v81 (Host.exp : (⟨S100000x64, .f32⟩ : BufTy).Contents (Elt F) → (⟨S100000x64, .f32⟩ : BufTy).Contents (Elt F)),
    nullary main_cst_14 (constant S_ .f32 0x3F800000#32),
    unary main_cst_14 main_v82 (broadcastInDim S100000x64 ![] bcast_S_S100000x64 : (⟨S_, .f32⟩ : BufTy).Contents (Elt F) → (⟨S100000x64, .f32⟩ : BufTy).Contents (Elt F)),
    binary main_v82 main_v81 main_v83 (addf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x3F800000#32),
    unary main_cst_15 main_v84 (broadcastInDim S100000x64 ![] bcast_S_S100000x64 : (⟨S_, .f32⟩ : BufTy).Contents (Elt F) → (⟨S100000x64, .f32⟩ : BufTy).Contents (Elt F)),
    binary main_v84 main_v83 main_v85 (Host.divf : (⟨S100000x64, .f32⟩ : BufTy).Contents (Elt F) → (⟨S100000x64, .f32⟩ : BufTy).Contents (Elt F) → (⟨S100000x64, .f32⟩ : BufTy).Contents (Elt F)),
    binary main_arg0 main_arg7 main_v86 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_16 (constantI S_ 32 0#32),
    unary main_c_16 main_v87 (broadcastInDim S1700000 ![] bcast_S_S1700000 : (⟨S_, .i32⟩ : BufTy).Contents (Elt F) → (⟨S1700000, .i32⟩ : BufTy).Contents (Elt F)),
    binary main_v5 main_v87 main_v88 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v89 (broadcastInDim S1700000 ![] bcast_S_S1700000 : (⟨S_, .i32⟩ : BufTy).Contents (Elt F) → (⟨S1700000, .i32⟩ : BufTy).Contents (Elt F)),
    binary main_v5 main_v89 main_v90 (addi : (⟨S1700000, .i32⟩ : BufTy).Contents (Elt F) → (⟨S1700000, .i32⟩ : BufTy).Contents (Elt F) → (⟨S1700000, .i32⟩ : BufTy).Contents (Elt F)),
    ternary main_v88 main_v90 main_v5 main_v91 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v91 main_v92 (broadcastInDim S1700000x1 ![0] bcast_S1700000_S1700000x1_0 : (⟨S1700000, .i32⟩ : BufTy).Contents (Elt F) → (⟨S1700000x1, .i32⟩ : BufTy).Contents (Elt F)),
    binary main_v86 main_v92 main_v93 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v28 main_v94 (broadcastInDim S1700000x1 ![0] bcast_S1700000_S1700000x1_0 : (⟨S1700000, .f32⟩ : BufTy).Contents (Elt F) → (⟨S1700000x1, .f32⟩ : BufTy).Contents (Elt F)),
    unary main_v94 main_v95 (broadcastInDim S1700000x64 ![0, 1] bcast_S1700000x1_S1700000x64_0_1 : (⟨S1700000x1, .f32⟩ : BufTy).Contents (Elt F) → (⟨S1700000x64, .f32⟩ : BufTy).Contents (Elt F)),
    binary main_v93 main_v95 main_v96 (mulf : (⟨S1700000x64, .f32⟩ : BufTy).Contents (Elt F) → (⟨S1700000x64, .f32⟩ : BufTy).Contents (Elt F) → (⟨S1700000x64, .f32⟩ : BufTy).Contents (Elt F)),
    nullary main_cst_18 (constant S_ .f32 0x00000000#32),
    unary main_cst_18 main_v97 (broadcastInDim S100000x64 ![] bcast_S_S100000x64 : (⟨S_, .f32⟩ : BufTy).Contents (Elt F) → (⟨S100000x64, .f32⟩ : BufTy).Contents (Elt F)),
    unary main_v6 main_v98 (broadcastInDim S1700000x1 ![0] bcast_S1700000_S1700000x1_0 : (⟨S1700000, .i32⟩ : BufTy).Contents (Elt F) → (⟨S1700000x1, .i32⟩ : BufTy).Contents (Elt F)),
    ternary main_v97 main_v98 main_v96 main_v99 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg8 main_v100 (broadcastInDim S1x64 ![1] bcast_S64_S1x64_1 : (⟨S64, .f32⟩ : BufTy).Contents (Elt F) → (⟨S1x64, .f32⟩ : BufTy).Contents (Elt F)),
    unary main_v100 main_v101 (broadcastInDim S100000x64 ![0, 1] bcast_S1x64_S100000x64_0_1 : (⟨S1x64, .f32⟩ : BufTy).Contents (Elt F) → (⟨S100000x64, .f32⟩ : BufTy).Contents (Elt F)),
    binary main_v99 main_v101 main_v102 (addf : (⟨S100000x64, .f32⟩ : BufTy).Contents (Elt F) → (⟨S100000x64, .f32⟩ : BufTy).Contents (Elt F) → (⟨S100000x64, .f32⟩ : BufTy).Contents (Elt F)),
    binary main_v29 main_v85 main_v103 (mulf : (⟨S100000x64, .f32⟩ : BufTy).Contents (Elt F) → (⟨S100000x64, .f32⟩ : BufTy).Contents (Elt F) → (⟨S100000x64, .f32⟩ : BufTy).Contents (Elt F)),
    binary main_v102 main_v103 main_v104 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    binary main_v104 main_arg13 main_v105 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg14 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v105 main_v107 main_v108 (addf : (⟨S100000x64, .f32⟩ : BufTy).Contents (Elt F) → (⟨S100000x64, .f32⟩ : BufTy).Contents (Elt F) → (⟨S100000x64, .f32⟩ : BufTy).Contents (Elt F)),
    unary main_v108 main_v109 (Host.tanh : (⟨S100000x64, .f32⟩ : BufTy).Contents (Elt F) → (⟨S100000x64, .f32⟩ : BufTy).Contents (Elt F)),
    binary main_v57 main_v29 main_v110 (mulf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3F800000#32),
    unary main_cst_19 main_v111 (broadcastInDim S100000x64 ![] bcast_S_S100000x64 : (⟨S_, .f32⟩ : BufTy).Contents (Elt F) → (⟨S100000x64, .f32⟩ : BufTy).Contents (Elt F)),
    binary main_v111 main_v57 main_v112 (subf : (⟨S100000x64, .f32⟩ : BufTy).Contents (Elt F) → (⟨S100000x64, .f32⟩ : BufTy).Contents (Elt F) → (⟨S100000x64, .f32⟩ : BufTy).Contents (Elt F)),
    binary main_v112 main_v109 main_v113 (mulf : (⟨S100000x64, .f32⟩ : BufTy).Contents (Elt F) → (⟨S100000x64, .f32⟩ : BufTy).Contents (Elt F) → (⟨S100000x64, .f32⟩ : BufTy).Contents (Elt F)),
    binary main_v110 main_v113 main_v114 (addf : (⟨S100000x64, .f32⟩ : BufTy).Contents (Elt F) → (⟨S100000x64, .f32⟩ : BufTy).Contents (Elt F) → (⟨S100000x64, .f32⟩ : BufTy).Contents (Elt F)),
    nullary main_c_20 (constantI S_ 32 0#32),
    unary main_c_20 main_v115 (broadcastInDim S1600000 ![] bcast_S_S1600000 : (⟨S_, .i32⟩ : BufTy).Contents (Elt F) → (⟨S1600000, .i32⟩ : BufTy).Contents (Elt F)),
    binary main_v1 main_v115 main_v116 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v117 (broadcastInDim S1600000 ![] bcast_S_S1600000 : (⟨S_, .i32⟩ : BufTy).Contents (Elt F) → (⟨S1600000, .i32⟩ : BufTy).Contents (Elt F)),
    binary main_v1 main_v117 main_v118 (addi : (⟨S1600000, .i32⟩ : BufTy).Contents (Elt F) → (⟨S1600000, .i32⟩ : BufTy).Contents (Elt F) → (⟨S1600000, .i32⟩ : BufTy).Contents (Elt F)),
    ternary main_v116 main_v118 main_v1 main_v119 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v119 main_v120 (broadcastInDim S1600000x1 ![0] bcast_S1600000_S1600000x1_0 : (⟨S1600000, .i32⟩ : BufTy).Contents (Elt F) → (⟨S1600000x1, .i32⟩ : BufTy).Contents (Elt F)),
    binary main_v114 main_v120 main_v121 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_22 (constantI S_ 32 0#32),
    unary main_c_22 main_v122 (broadcastInDim S1600000 ![] bcast_S_S1600000 : (⟨S_, .i32⟩ : BufTy).Contents (Elt F) → (⟨S1600000, .i32⟩ : BufTy).Contents (Elt F)),
    binary main_v3 main_v122 main_v123 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 100000#32),
    unary main_c_23 main_v124 (broadcastInDim S1600000 ![] bcast_S_S1600000 : (⟨S_, .i32⟩ : BufTy).Contents (Elt F) → (⟨S1600000, .i32⟩ : BufTy).Contents (Elt F)),
    binary main_v3 main_v124 main_v125 (addi : (⟨S1600000, .i32⟩ : BufTy).Contents (Elt F) → (⟨S1600000, .i32⟩ : BufTy).Contents (Elt F) → (⟨S1600000, .i32⟩ : BufTy).Contents (Elt F)),
    ternary main_v123 main_v125 main_v3 main_v126 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v126 main_v127 (broadcastInDim S1600000x1 ![0] bcast_S1600000_S1600000x1_0 : (⟨S1600000, .i32⟩ : BufTy).Contents (Elt F) → (⟨S1600000x1, .i32⟩ : BufTy).Contents (Elt F)),
    binary main_v114 main_v127 main_v128 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nary ![main_v121, main_v128, main_arg2] main_v129 (fun u => concatenate S1600000x160 1 [⟨S1600000x64, u 0⟩, ⟨S1600000x64, u 1⟩, ⟨S1600000x32, u 2⟩] concatenates_S1600000x64_S1600000x64_S1600000x32_S1600000x160_d1),
    binary main_v129 main_arg15 main_v130 ((fun l r => Host.dotGeneral dot_S1600000x160_S160x64_S1600000x64_1_0_0_1_n_n none l r) : (⟨S1600000x160, .f32⟩ : BufTy).Contents (Elt F) → (⟨S160x64, .f32⟩ : BufTy).Contents (Elt F) → (⟨S1600000x64, .f32⟩ : BufTy).Contents (Elt F)),
    unary main_arg16 main_v131 (broadcastInDim S1x64 ![1] bcast_S64_S1x64_1 : (⟨S64, .f32⟩ : BufTy).Contents (Elt F) → (⟨S1x64, .f32⟩ : BufTy).Contents (Elt F)),
    unary main_v131 main_v132 (broadcastInDim S1600000x64 ![0, 1] bcast_S1x64_S1600000x64_0_1 : (⟨S1x64, .f32⟩ : BufTy).Contents (Elt F) → (⟨S1600000x64, .f32⟩ : BufTy).Contents (Elt F)),
    binary main_v130 main_v132 main_v133 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x64, .f32⟩) main_call0_v0) (broadcastInDim S1600000x64 ![] bcast_S_S1600000x64),
    TRef.binary (TRef.of (T := ⟨S1600000x64, .f32⟩) main_v133) (TRef.of (T := ⟨S1600000x64, .f32⟩) main_call0_v0) (TRef.of (T := ⟨S1600000x64, .f32⟩) main_v134) maximumf,
    binary main_v134 main_arg17 main_v135 ((fun l r => Host.dotGeneral dot_S1600000x64_S64x4_S1600000x4_1_0_0_1_n_n none l r) : (⟨S1600000x64, .f32⟩ : BufTy).Contents (Elt F) → (⟨S64x4, .f32⟩ : BufTy).Contents (Elt F) → (⟨S1600000x4, .f32⟩ : BufTy).Contents (Elt F)),
    unary main_arg18 main_v136 (broadcastInDim S1x4 ![1] bcast_S4_S1x4_1 : (⟨S4, .f32⟩ : BufTy).Contents (Elt F) → (⟨S1x4, .f32⟩ : BufTy).Contents (Elt F)),
    unary main_v136 main_v137 (broadcastInDim S1600000x4 ![0, 1] bcast_S1x4_S1600000x4_0_1 : (⟨S1x4, .f32⟩ : BufTy).Contents (Elt F) → (⟨S1600000x4, .f32⟩ : BufTy).Contents (Elt F)),
    binary main_v135 main_v137 main_v138 (addf : (⟨S1600000x4, .f32⟩ : BufTy).Contents (Elt F) → (⟨S1600000x4, .f32⟩ : BufTy).Contents (Elt F) → (⟨S1600000x4, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., unary_bufs_sub .., unary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- Every weakly fair execution of the reference terminates, and then each buffer holds what the operations, in order,
    leave in it from the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-! ## No operation writes an argument -/

set_option maxRecDepth 8192 in
set_option maxHeartbeats 8000000 in
theorem kept_arg0 (m : (ℓ : Loc nD τ sig) → Buf (Elt F) ℓ) (c : Dev nD) :
    after ops (launchContents m c) (Proc.devRef .tc main_arg0) = m ((c.tc : Thread nD τ).loc main_arg0) := by
  after_results_simp <;> rfl
set_option maxRecDepth 8192 in
set_option maxHeartbeats 8000000 in
theorem kept_arg1 (m : (ℓ : Loc nD τ sig) → Buf (Elt F) ℓ) (c : Dev nD) :
    after ops (launchContents m c) (Proc.devRef .tc main_arg1) = m ((c.tc : Thread nD τ).loc main_arg1) := by
  after_results_simp <;> rfl
set_option maxRecDepth 8192 in
set_option maxHeartbeats 8000000 in
theorem kept_arg2 (m : (ℓ : Loc nD τ sig) → Buf (Elt F) ℓ) (c : Dev nD) :
    after ops (launchContents m c) (Proc.devRef .tc main_arg2) = m ((c.tc : Thread nD τ).loc main_arg2) := by
  after_results_simp <;> rfl
set_option maxRecDepth 8192 in
set_option maxHeartbeats 8000000 in
theorem kept_arg3 (m : (ℓ : Loc nD τ sig) → Buf (Elt F) ℓ) (c : Dev nD) :
    after ops (launchContents m c) (Proc.devRef .tc main_arg3) = m ((c.tc : Thread nD τ).loc main_arg3) := by
  after_results_simp <;> rfl
set_option maxRecDepth 8192 in
set_option maxHeartbeats 8000000 in
theorem kept_arg4 (m : (ℓ : Loc nD τ sig) → Buf (Elt F) ℓ) (c : Dev nD) :
    after ops (launchContents m c) (Proc.devRef .tc main_arg4) = m ((c.tc : Thread nD τ).loc main_arg4) := by
  after_results_simp <;> rfl
set_option maxRecDepth 8192 in
set_option maxHeartbeats 8000000 in
theorem kept_arg5 (m : (ℓ : Loc nD τ sig) → Buf (Elt F) ℓ) (c : Dev nD) :
    after ops (launchContents m c) (Proc.devRef .tc main_arg5) = m ((c.tc : Thread nD τ).loc main_arg5) := by
  after_results_simp <;> rfl
set_option maxRecDepth 8192 in
set_option maxHeartbeats 8000000 in
theorem kept_arg6 (m : (ℓ : Loc nD τ sig) → Buf (Elt F) ℓ) (c : Dev nD) :
    after ops (launchContents m c) (Proc.devRef .tc main_arg6) = m ((c.tc : Thread nD τ).loc main_arg6) := by
  after_results_simp <;> rfl
set_option maxRecDepth 8192 in
set_option maxHeartbeats 8000000 in
theorem kept_arg7 (m : (ℓ : Loc nD τ sig) → Buf (Elt F) ℓ) (c : Dev nD) :
    after ops (launchContents m c) (Proc.devRef .tc main_arg7) = m ((c.tc : Thread nD τ).loc main_arg7) := by
  after_results_simp <;> rfl
set_option maxRecDepth 8192 in
set_option maxHeartbeats 8000000 in
theorem kept_arg8 (m : (ℓ : Loc nD τ sig) → Buf (Elt F) ℓ) (c : Dev nD) :
    after ops (launchContents m c) (Proc.devRef .tc main_arg8) = m ((c.tc : Thread nD τ).loc main_arg8) := by
  after_results_simp <;> rfl
set_option maxRecDepth 8192 in
set_option maxHeartbeats 8000000 in
theorem kept_arg9 (m : (ℓ : Loc nD τ sig) → Buf (Elt F) ℓ) (c : Dev nD) :
    after ops (launchContents m c) (Proc.devRef .tc main_arg9) = m ((c.tc : Thread nD τ).loc main_arg9) := by
  after_results_simp <;> rfl
set_option maxRecDepth 8192 in
set_option maxHeartbeats 8000000 in
theorem kept_arg10 (m : (ℓ : Loc nD τ sig) → Buf (Elt F) ℓ) (c : Dev nD) :
    after ops (launchContents m c) (Proc.devRef .tc main_arg10) = m ((c.tc : Thread nD τ).loc main_arg10) := by
  after_results_simp <;> rfl
set_option maxRecDepth 8192 in
set_option maxHeartbeats 8000000 in
theorem kept_arg11 (m : (ℓ : Loc nD τ sig) → Buf (Elt F) ℓ) (c : Dev nD) :
    after ops (launchContents m c) (Proc.devRef .tc main_arg11) = m ((c.tc : Thread nD τ).loc main_arg11) := by
  after_results_simp <;> rfl
set_option maxRecDepth 8192 in
set_option maxHeartbeats 8000000 in
theorem kept_arg12 (m : (ℓ : Loc nD τ sig) → Buf (Elt F) ℓ) (c : Dev nD) :
    after ops (launchContents m c) (Proc.devRef .tc main_arg12) = m ((c.tc : Thread nD τ).loc main_arg12) := by
  after_results_simp <;> rfl
set_option maxRecDepth 8192 in
set_option maxHeartbeats 8000000 in
theorem kept_arg13 (m : (ℓ : Loc nD τ sig) → Buf (Elt F) ℓ) (c : Dev nD) :
    after ops (launchContents m c) (Proc.devRef .tc main_arg13) = m ((c.tc : Thread nD τ).loc main_arg13) := by
  after_results_simp <;> rfl
set_option maxRecDepth 8192 in
set_option maxHeartbeats 8000000 in
theorem kept_arg14 (m : (ℓ : Loc nD τ sig) → Buf (Elt F) ℓ) (c : Dev nD) :
    after ops (launchContents m c) (Proc.devRef .tc main_arg14) = m ((c.tc : Thread nD τ).loc main_arg14) := by
  after_results_simp <;> rfl
set_option maxRecDepth 8192 in
set_option maxHeartbeats 8000000 in
theorem kept_arg15 (m : (ℓ : Loc nD τ sig) → Buf (Elt F) ℓ) (c : Dev nD) :
    after ops (launchContents m c) (Proc.devRef .tc main_arg15) = m ((c.tc : Thread nD τ).loc main_arg15) := by
  after_results_simp <;> rfl
set_option maxRecDepth 8192 in
set_option maxHeartbeats 8000000 in
theorem kept_arg16 (m : (ℓ : Loc nD τ sig) → Buf (Elt F) ℓ) (c : Dev nD) :
    after ops (launchContents m c) (Proc.devRef .tc main_arg16) = m ((c.tc : Thread nD τ).loc main_arg16) := by
  after_results_simp <;> rfl
set_option maxRecDepth 8192 in
set_option maxHeartbeats 8000000 in
theorem kept_arg17 (m : (ℓ : Loc nD τ sig) → Buf (Elt F) ℓ) (c : Dev nD) :
    after ops (launchContents m c) (Proc.devRef .tc main_arg17) = m ((c.tc : Thread nD τ).loc main_arg17) := by
  after_results_simp <;> rfl
set_option maxRecDepth 8192 in
set_option maxHeartbeats 8000000 in
theorem kept_arg18 (m : (ℓ : Loc nD τ sig) → Buf (Elt F) ℓ) (c : Dev nD) :
    after ops (launchContents m c) (Proc.devRef .tc main_arg18) = m ((c.tc : Thread nD τ).loc main_arg18) := by
  after_results_simp <;> rfl

/-! ## The result buffer is the last ten operations of the two gathered buffers and the arguments -/

set_option maxRecDepth 8192 in
set_option maxHeartbeats 16000000 in
theorem result_eq (m : (ℓ : Loc nD τ sig) → Buf (Elt F) ℓ) (c : Dev nD) :
    after ops (launchContents m c) (Proc.devRef .tc main_v138)
      = tail (F := F) (after ops (launchContents m c) (Proc.devRef .tc main_v121)) (after ops (launchContents m c) (Proc.devRef .tc main_v128))
          (m ((c.tc : Thread nD τ).loc main_arg2)) (m ((c.tc : Thread nD τ).loc main_arg15)) (m ((c.tc : Thread nD τ).loc main_arg16))
          (m ((c.tc : Thread nD τ).loc main_arg17)) (m ((c.tc : Thread nD τ).loc main_arg18)) := by
  unfold tail
  after_results_simp
  simp only [Matrix.cons_val_zero, Matrix.cons_val_one, Matrix.cons_val_two, Matrix.head_cons, Matrix.tail_cons]
  after_results_simp
  rfl

end Cert.ReferenceIdeal.HostRun

end
-- ==== Proof.HostStage.lean ====
/-
  The arrays the kernel's launch finds, in terms of the program's arguments.

  Before the launch the program runs the node stage on the host — degrees, the three graph convolutions, the gates —
  and gathers the node embeddings of each edge's source and destination. The reference runs the same operations on the
  same arguments, so the two gathered arrays are the reference's own gathered buffers whenever the two memories agree on the arguments;
  they are compared as whole terms and never opened. The edge attributes and the two weight matrices reach the launch untouched, and each bias
  vector is re-laid as a one-row matrix.
-/
import proofs.«177977_j57612691309353_2_alg».proof.Proof.Gen.KernelIdeal.Frame
import proofs.«177977_j57612691309353_2_alg».proof.Proof.RefRun
import proofs.«177977_j57612691309353_2_alg».proof.Proof.LibConcatRows
import Idealize.ShloMosaic.Lib.StableHlo.Run
import Idealize.ShloMosaic.Lib.Pipeline.Value
import Idealize.ShloMosaic.Lib.ValueIdx

noncomputable section

namespace Cert.KernelIdeal.HostStage

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

-- the node stage joins arrays three times; the evaluation below has to rewrite inside those joins
attribute [local congr] Idealize.ShloMosaic.ConcatRows.concatenate_congr_operands

/-! ## The gathered embeddings -/

set_option maxRecDepth 8192 in
set_option maxHeartbeats 64000000 in
/-- From memories that agree on the arguments the node stage reads, the gathered source and destination embeddings
    the launch finds are the reference's two gathered buffers: the same host operations, composed, on the same
    arguments. Both sides are evaluated to the operations' terms of the arguments and compared as they stand. -/
theorem gathered_at (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14)) :
    (V m c main_v121 : S1600000x64.Idx → EReal) = (after (Cert.ReferenceIdeal.HostRun.ops (F := Ideal)) (launchContents m' c) (Proc.devRef .tc Cert.ReferenceIdeal.main_v121) : S1600000x64.Idx → EReal)
    ∧ (V m c main_v128 : S1600000x64.Idx → EReal) = (after (Cert.ReferenceIdeal.HostRun.ops (F := Ideal)) (launchContents m' c) (Proc.devRef .tc Cert.ReferenceIdeal.main_v128) : S1600000x64.Idx → EReal) := by
  have e0 : launchContents m' c (Proc.devRef .tc Cert.ReferenceIdeal.main_arg0) = m (c, Proc.devRef .tc main_arg0) := h0
  have e1 : launchContents m' c (Proc.devRef .tc Cert.ReferenceIdeal.main_arg1) = m (c, Proc.devRef .tc main_arg1) := h1
  have e3 : launchContents m' c (Proc.devRef .tc Cert.ReferenceIdeal.main_arg3) = m (c, Proc.devRef .tc main_arg3) := h3
  have e4 : launchContents m' c (Proc.devRef .tc Cert.ReferenceIdeal.main_arg4) = m (c, Proc.devRef .tc main_arg4) := h4
  have e5 : launchContents m' c (Proc.devRef .tc Cert.ReferenceIdeal.main_arg5) = m (c, Proc.devRef .tc main_arg5) := h5
  have e6 : launchContents m' c (Proc.devRef .tc Cert.ReferenceIdeal.main_arg6) = m (c, Proc.devRef .tc main_arg6) := h6
  have e7 : launchContents m' c (Proc.devRef .tc Cert.ReferenceIdeal.main_arg7) = m (c, Proc.devRef .tc main_arg7) := h7
  have e8 : launchContents m' c (Proc.devRef .tc Cert.ReferenceIdeal.main_arg8) = m (c, Proc.devRef .tc main_arg8) := h8
  have e9 : launchContents m' c (Proc.devRef .tc Cert.ReferenceIdeal.main_arg9) = m (c, Proc.devRef .tc main_arg9) := h9
  have e10 : launchContents m' c (Proc.devRef .tc Cert.ReferenceIdeal.main_arg10) = m (c, Proc.devRef .tc main_arg10) := h10
  have e11 : launchContents m' c (Proc.devRef .tc Cert.ReferenceIdeal.main_arg11) = m (c, Proc.devRef .tc main_arg11) := h11
  have e12 : launchContents m' c (Proc.devRef .tc Cert.ReferenceIdeal.main_arg12) = m (c, Proc.devRef .tc main_arg12) := h12
  have e13 : launchContents m' c (Proc.devRef .tc Cert.ReferenceIdeal.main_arg13) = m (c, Proc.devRef .tc main_arg13) := h13
  have e14 : launchContents m' c (Proc.devRef .tc Cert.ReferenceIdeal.main_arg14) = m (c, Proc.devRef .tc main_arg14) := h14
  dsimp only [V, hostOps0]
  -- one pass: each operation's result at its own buffer, every other buffer as it was, and the reference's argument
  -- leaves as the kernel program's
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    e0, e1, e3, e4, e5, e6, e7, e8, e9, e10, e11, e12, e13, e14]
  exact ⟨rfl, rfl⟩

/-- The same, with the two arrays named as the launch's windows 0 and 1 name them. -/
theorem gathered (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14)) :
    (V m c (Pipeline.arrRef spec0 0) : S1600000x64.Idx → EReal) = (after (Cert.ReferenceIdeal.HostRun.ops (F := Ideal)) (launchContents m' c) (Proc.devRef .tc Cert.ReferenceIdeal.main_v121) : S1600000x64.Idx → EReal)
    ∧ (V m c (Pipeline.arrRef spec0 1) : S1600000x64.Idx → EReal) = (after (Cert.ReferenceIdeal.HostRun.ops (F := Ideal)) (launchContents m' c) (Proc.devRef .tc Cert.ReferenceIdeal.main_v128) : S1600000x64.Idx → EReal) :=
  gathered_at m m' c h0 h1 h3 h4 h5 h6 h7 h8 h9 h10 h11 h12 h13 h14

/-! ## The arguments that reach the launch untouched -/

theorem attrs (c : Dev nD) : (V m c (Pipeline.arrRef spec0 2) : S1600000x32.Idx → EReal) = m ((c : Thread nD τ).loc main_arg2) :=
  V_main_arg2 m c
theorem weights1 (c : Dev nD) : (V m c (Pipeline.arrRef spec0 3) : S160x64.Idx → EReal) = m ((c : Thread nD τ).loc main_arg15) :=
  V_main_arg15 m c
theorem weights2 (c : Dev nD) : (V m c (Pipeline.arrRef spec0 5) : S64x4.Idx → EReal) = m ((c : Thread nD τ).loc main_arg17) :=
  V_main_arg17 m c

/-! ## The bias vectors, re-laid as one-row matrices -/

theorem bias1_whole (c : Dev nD) :
    (V m c main_v129 : S1x64.Idx → EReal) = shapeCast S1x64 (m ((c : Thread nD τ).loc main_arg16) : S64.Idx → EReal) shapeCasts_S64_S1x64 := by
  dsimp only [V, hostOps0]
  after_results_simp
  rfl

/-- Entry `(0, k)` of the first bias row is entry `k` of the first bias vector. -/
theorem bias1 (c : Dev nD) (k : Fin 64) :
    (V m c (Pipeline.arrRef spec0 4) : S1x64.Idx → EReal) (ix2 0 k) = (m ((c : Thread nD τ).loc main_arg16) : S64.Idx → EReal) (ix1 k) := by
  have e : (V m c (Pipeline.arrRef spec0 4) : S1x64.Idx → EReal) = shapeCast S1x64 (m ((c : Thread nD τ).loc main_arg16) : S64.Idx → EReal) shapeCasts_S64_S1x64 :=
    bias1_whole m c
  rw [e]
  exact shapeCast_apply _ shapeCasts_S64_S1x64 (ix2 0 k) (ix1 k) (by
    rw [Shape.rowMajor_val_one, Shape.rowMajor_val_two]
    show k.val = 0 * 64 + k.val
    omega)

theorem bias2_whole (c : Dev nD) :
    (V m c main_v130 : S1x4.Idx → EReal) = shapeCast S1x4 (m ((c : Thread nD τ).loc main_arg18) : S4.Idx → EReal) shapeCasts_S4_S1x4 := by
  dsimp only [V, hostOps0]
  after_results_simp
  rfl

/-- Entry `(0, q)` of the second bias row is entry `q` of the second bias vector. -/
theorem bias2 (c : Dev nD) (q : Fin 4) :
    (V m c (Pipeline.arrRef spec0 6) : S1x4.Idx → EReal) (ix2 0 q) = (m ((c : Thread nD τ).loc main_arg18) : S4.Idx → EReal) (ix1 q) := by
  have e : (V m c (Pipeline.arrRef spec0 6) : S1x4.Idx → EReal) = shapeCast S1x4 (m ((c : Thread nD τ).loc main_arg18) : S4.Idx → EReal) shapeCasts_S4_S1x4 :=
    bias2_whole m c
  rw [e]
  exact shapeCast_apply _ shapeCasts_S4_S1x4 (ix2 0 q) (ix1 q) (by
    rw [Shape.rowMajor_val_one, Shape.rowMajor_val_two]
    show q.val = 0 * 4 + q.val
    omega)

end Cert.KernelIdeal.HostStage

end
-- ==== Proof.Bridge.lean ====
/-
  The reference's result is the array the kernel's blocks fill.

  Both are the two-layer network on each edge's features. The reference's features are its two gathered buffers and
  the edge attributes; the kernel's are the arrays its launch finds, which — the two memories agreeing on the
  arguments — are those same buffers (the node stage is one and the same computation on both sides, carried whole).
  The weights are the arguments themselves, and each bias row's entry `(0, k)` is the bias vector's entry `k`. So
  the two arrays agree entry by entry.
-/
import proofs.«177977_j57612691309353_2_alg».proof.Proof.Blocks
import proofs.«177977_j57612691309353_2_alg».proof.Proof.HostStage
import proofs.«177977_j57612691309353_2_alg».proof.Proof.RefTail
import proofs.«177977_j57612691309353_2_alg».proof.Proof.RefRun

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.ValueIdx Cert.EdgeMlp

variable (m : (ℓ : Loc nD τ sig) → Buf (Elt Ideal) ℓ)

/-- From memories that agree on the arguments, the reference's last ten operations of its gathered buffers and
    arguments give the array the kernel's result ends holding. -/
theorem ref_is_result (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h16 : m' ((c.tc : Thread Cert.ReferenceIdeal.nD Cert.ReferenceIdeal.τ).loc Cert.ReferenceIdeal.main_arg16) = m ((c.tc : Thread nD τ).loc main_arg16))
    (h17 : m' ((c.tc : Thread Cert.ReferenceIdeal.nD Cert.ReferenceIdeal.τ).loc Cert.ReferenceIdeal.main_arg17) = m ((c.tc : Thread nD τ).loc main_arg17))
    (h18 : m' ((c.tc : Thread Cert.ReferenceIdeal.nD Cert.ReferenceIdeal.τ).loc Cert.ReferenceIdeal.main_arg18) = m ((c.tc : Thread nD τ).loc main_arg18)) :
    Cert.ReferenceIdeal.Tail.tail (F := Ideal) (after (Cert.ReferenceIdeal.HostRun.ops (F := Ideal)) (launchContents m' c) (Proc.devRef .tc Cert.ReferenceIdeal.main_v121)) (after (Cert.ReferenceIdeal.HostRun.ops (F := Ideal)) (launchContents m' c) (Proc.devRef .tc Cert.ReferenceIdeal.main_v128))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = Blocks.result m c := by
  obtain ⟨g1, g2⟩ := HostStage.gathered m m' c h0 h1 h3 h4 h5 h6 h7 h8 h9 h10 h11 h12 h13 h14
  rw [h2, h15, h16, h17, h18]
  funext i
  obtain ⟨r, q, rfl⟩ : ∃ (r : Fin 1600000) (q : Fin 4), i = ix2 r q := ⟨i 0, i 1, eq_ix2 i⟩
  rw [Cert.ReferenceIdeal.Tail.tail_apply, Blocks.result_ix2]
  exact mlpRow_congr (R := 1600000) (R' := 1600000)
    ((after (Cert.ReferenceIdeal.HostRun.ops (F := Ideal)) (launchContents m' c) (Proc.devRef .tc Cert.ReferenceIdeal.main_v121)) : S1600000x64.Idx → EReal)
    ((after (Cert.ReferenceIdeal.HostRun.ops (F := Ideal)) (launchContents m' c) (Proc.devRef .tc Cert.ReferenceIdeal.main_v128)) : S1600000x64.Idx → EReal)
    (m ((c.tc : Thread nD τ).loc main_arg2) : S1600000x32.Idx → EReal)
    (V m c (Pipeline.arrRef spec0 0) : S1600000x64.Idx → EReal) (V m c (Pipeline.arrRef spec0 1) : S1600000x64.Idx → EReal) (V m c (Pipeline.arrRef spec0 2) : S1600000x32.Idx → EReal)
    (m ((c.tc : Thread nD τ).loc main_arg15) : S160x64.Idx → EReal) (V m c (Pipeline.arrRef spec0 3) : S160x64.Idx → EReal)
    (fun k => (m ((c.tc : Thread nD τ).loc main_arg16) : S64.Idx → EReal) (ix1 k)) (fun k => (V m c (Pipeline.arrRef spec0 4) : S1x64.Idx → EReal) (ix2 0 k))
    (m ((c.tc : Thread nD τ).loc main_arg17) : S64x4.Idx → EReal) (V m c (Pipeline.arrRef spec0 5) : S64x4.Idx → EReal)
    (fun q' => (m ((c.tc : Thread nD τ).loc main_arg18) : S4.Idx → EReal) (ix1 q')) (fun q' => (V m c (Pipeline.arrRef spec0 6) : S1x4.Idx → EReal) (ix2 0 q'))
    r r
    (fun k => (congrFun g1 (ix2 r k)).symm) (fun k => (congrFun g2 (ix2 r k)).symm)
    (fun k => (congrFun (HostStage.attrs m c) (ix2 r k)).symm)
    (fun j k => (congrFun (HostStage.weights1 m c) (ix2 j k)).symm) (fun k => (HostStage.bias1 m c k).symm)
    (fun k q' => (congrFun (HostStage.weights2 m c) (ix2 k q')).symm) (fun q' => (HostStage.bias2 m c q').symm) q

end Cert.KernelIdeal.Bridge

end
-- ==== Proof.lean ====
/-
  Edge prediction on a temporal graph network: the Pallas kernel against the jnp reference, over the extended reals.

  Both programs first run the same node stage on the host (degrees, three normalised graph convolutions, the update,
  reset and candidate gates) and gather each edge's source and destination embeddings. They differ only in the edge
  predictor. The reference lays the two gathered arrays beside the edge attributes (160 columns), multiplies by
  `W1`, adds `b1`, rectifies, multiplies by `W2` and adds `b2`, over all 1 600 000 edges at once. The kernel does the
  same on blocks of 3200 edges, one grid point per block, with its matrix operands narrowed to bf16 — the identity on
  the extended reals — and each product accumulated into zero, which is the plain sum over the contracted axis.

  So entry `(r, q)` of either result is `∑ k, max (∑ j, feat r j · W1 j k + b1 k) 0 · W2 k q + b2 q` (`EdgeMlp.mlpRow`),
  where `feat r` is row `r` of the three pieces side by side. The sums are taken over the same index sets in the same
  arrangement on both sides, so no law of the extended reals beyond equality of the summands is used, and the
  finiteness of the inputs is never opened. The node stage is carried as one term on both sides and never unfolded.

  The modules: `LibConcatRows` (three pieces side by side, read at an entry), `EdgeMlp` (the network at an entry),
  `Payload` (the kernel body's store at an entry), `Blocks` (from the 500 blocks to the result array), `RefTail`
  (the reference's last ten operations as one function, at an entry), `RefRun` (the reference's run: each buffer at the
  operations' value of the launch contents), `HostStage` (the arrays the launch finds, in terms of the arguments and of
  the reference's gathered buffers), `Bridge` (the reference's result is the array the blocks fill). Here the five
  claims are assembled.
-/
import proofs.«177977_j57612691309353_2_alg».proof.Defs
import proofs.«177977_j57612691309353_2_alg».proof.Proof.Gen.Kernel
import proofs.«177977_j57612691309353_2_alg».proof.Proof.Gen.Kernel.Skeleton
import proofs.«177977_j57612691309353_2_alg».proof.Proof.Gen.Kernel.Launch
import proofs.«177977_j57612691309353_2_alg».proof.Proof.Gen.Kernel.Points
import proofs.«177977_j57612691309353_2_alg».proof.Proof.Gen.Kernel.Frame
import proofs.«177977_j57612691309353_2_alg».proof.Proof.Gen.KernelIdeal
import proofs.«177977_j57612691309353_2_alg».proof.Proof.Gen.KernelIdeal.Skeleton
import proofs.«177977_j57612691309353_2_alg».proof.Proof.Gen.KernelIdeal.Launch
import proofs.«177977_j57612691309353_2_alg».proof.Proof.Gen.KernelIdeal.Points
import proofs.«177977_j57612691309353_2_alg».proof.Proof.Gen.KernelIdeal.Frame
import proofs.«177977_j57612691309353_2_alg».proof.Proof.Gen.ReferenceIdeal
import proofs.«177977_j57612691309353_2_alg».proof.Proof.Gen.KernelIdeal.Value
import proofs.«177977_j57612691309353_2_alg».proof.Proof.Gen.Pre_finite_inputs
import proofs.«177977_j57612691309353_2_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run leaves every argument as it was. -/
theorem frame_referenceIdeal : Cert.frame_ReferenceIdeal := fun m ρ _ =>
  (θ_run Cert.ReferenceIdeal.defs _ _).mono (fun _ h c => ⟨(h c Cert.ReferenceIdeal.main_arg0).trans (Cert.ReferenceIdeal.HostRun.kept_arg0 m c),
    (h c Cert.ReferenceIdeal.main_arg1).trans (Cert.ReferenceIdeal.HostRun.kept_arg1 m c),
    (h c Cert.ReferenceIdeal.main_arg2).trans (Cert.ReferenceIdeal.HostRun.kept_arg2 m c),
    (h c Cert.ReferenceIdeal.main_arg3).trans (Cert.ReferenceIdeal.HostRun.kept_arg3 m c),
    (h c Cert.ReferenceIdeal.main_arg4).trans (Cert.ReferenceIdeal.HostRun.kept_arg4 m c),
    (h c Cert.ReferenceIdeal.main_arg5).trans (Cert.ReferenceIdeal.HostRun.kept_arg5 m c),
    (h c Cert.ReferenceIdeal.main_arg6).trans (Cert.ReferenceIdeal.HostRun.kept_arg6 m c),
    (h c Cert.ReferenceIdeal.main_arg7).trans (Cert.ReferenceIdeal.HostRun.kept_arg7 m c),
    (h c Cert.ReferenceIdeal.main_arg8).trans (Cert.ReferenceIdeal.HostRun.kept_arg8 m c),
    (h c Cert.ReferenceIdeal.main_arg9).trans (Cert.ReferenceIdeal.HostRun.kept_arg9 m c),
    (h c Cert.ReferenceIdeal.main_arg10).trans (Cert.ReferenceIdeal.HostRun.kept_arg10 m c),
    (h c Cert.ReferenceIdeal.main_arg11).trans (Cert.ReferenceIdeal.HostRun.kept_arg11 m c),
    (h c Cert.ReferenceIdeal.main_arg12).trans (Cert.ReferenceIdeal.HostRun.kept_arg12 m c),
    (h c Cert.ReferenceIdeal.main_arg13).trans (Cert.ReferenceIdeal.HostRun.kept_arg13 m c),
    (h c Cert.ReferenceIdeal.main_arg14).trans (Cert.ReferenceIdeal.HostRun.kept_arg14 m c),
    (h c Cert.ReferenceIdeal.main_arg15).trans (Cert.ReferenceIdeal.HostRun.kept_arg15 m c),
    (h c Cert.ReferenceIdeal.main_arg16).trans (Cert.ReferenceIdeal.HostRun.kept_arg16 m c),
    (h c Cert.ReferenceIdeal.main_arg17).trans (Cert.ReferenceIdeal.HostRun.kept_arg17 m c),
    (h c Cert.ReferenceIdeal.main_arg18).trans (Cert.ReferenceIdeal.HostRun.kept_arg18 m c)⟩)
    (Cert.ReferenceIdeal.HostRun.run_all (F := Ideal) m ρ)

/-- The idealization rewrote nothing in this kernel. -/
theorem preserves : Cert.preserves_Kernel_KernelIdeal := trivial

/-- From memories that agree on the arguments, both idealized programs end with the same result array: the two-layer
    network on every edge's features. -/
theorem algebraic : Cert.algebraic_KernelIdeal_ReferenceIdeal := by
  intro m ρ m' ρ' _ hagree
  refine ⟨fun c => Cert.KernelIdeal.Blocks.result m c, ?_, ?_⟩
  · exact (θ_run Cert.KernelIdeal.defs _ _).mono
      (fun r h c => ⟨(h c).1.trans (Cert.KernelIdeal.Blocks.final m c), (h c).2⟩) (Cert.KernelIdeal.Value.run_blocks m ρ)
  · refine (θ_run Cert.ReferenceIdeal.defs _ _).mono (fun _ h c => ?_) (Cert.ReferenceIdeal.HostRun.run_all (F := Ideal) m' ρ')
    obtain ⟨h0, h1, h2, h3, h4, h5, h6, h7, h8, h9, h10, h11, h12, h13, h14, h15, h16, h17, h18⟩ := hagree c
    exact ⟨(h c Cert.ReferenceIdeal.main_v138).trans ((Cert.ReferenceIdeal.HostRun.result_eq m' c).trans
        (Cert.KernelIdeal.Bridge.ref_is_result m m' c h0 h1 h2 h3 h4 h5 h6 h7 h8 h9 h10 h11 h12 h13 h14 h15 h16 h17 h18)),
      (h c Cert.ReferenceIdeal.main_arg0).trans (Cert.ReferenceIdeal.HostRun.kept_arg0 m' c),
      (h c Cert.ReferenceIdeal.main_arg1).trans (Cert.ReferenceIdeal.HostRun.kept_arg1 m' c),
      (h c Cert.ReferenceIdeal.main_arg2).trans (Cert.ReferenceIdeal.HostRun.kept_arg2 m' c),
      (h c Cert.ReferenceIdeal.main_arg3).trans (Cert.ReferenceIdeal.HostRun.kept_arg3 m' c),
      (h c Cert.ReferenceIdeal.main_arg4).trans (Cert.ReferenceIdeal.HostRun.kept_arg4 m' c),
      (h c Cert.ReferenceIdeal.main_arg5).trans (Cert.ReferenceIdeal.HostRun.kept_arg5 m' c),
      (h c Cert.ReferenceIdeal.main_arg6).trans (Cert.ReferenceIdeal.HostRun.kept_arg6 m' c),
      (h c Cert.ReferenceIdeal.main_arg7).trans (Cert.ReferenceIdeal.HostRun.kept_arg7 m' c),
      (h c Cert.ReferenceIdeal.main_arg8).trans (Cert.ReferenceIdeal.HostRun.kept_arg8 m' c),
      (h c Cert.ReferenceIdeal.main_arg9).trans (Cert.ReferenceIdeal.HostRun.kept_arg9 m' c),
      (h c Cert.ReferenceIdeal.main_arg10).trans (Cert.ReferenceIdeal.HostRun.kept_arg10 m' c),
      (h c Cert.ReferenceIdeal.main_arg11).trans (Cert.ReferenceIdeal.HostRun.kept_arg11 m' c),
      (h c Cert.ReferenceIdeal.main_arg12).trans (Cert.ReferenceIdeal.HostRun.kept_arg12 m' c),
      (h c Cert.ReferenceIdeal.main_arg13).trans (Cert.ReferenceIdeal.HostRun.kept_arg13 m' c),
      (h c Cert.ReferenceIdeal.main_arg14).trans (Cert.ReferenceIdeal.HostRun.kept_arg14 m' c),
      (h c Cert.ReferenceIdeal.main_arg15).trans (Cert.ReferenceIdeal.HostRun.kept_arg15 m' c),
      (h c Cert.ReferenceIdeal.main_arg16).trans (Cert.ReferenceIdeal.HostRun.kept_arg16 m' c),
      (h c Cert.ReferenceIdeal.main_arg17).trans (Cert.ReferenceIdeal.HostRun.kept_arg17 m' c),
      (h c Cert.ReferenceIdeal.main_arg18).trans (Cert.ReferenceIdeal.HostRun.kept_arg18 m' c)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
